-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x4 : Shape := ⟨2, ![16777216, 4]⟩
abbrev S2x480x640 : Shape := ⟨3, ![2, 480, 640]⟩
abbrev S_ : Shape := ⟨0, ![]⟩

class Facts : Prop where
  bcast_S_S16777216x4 : S_.BroadcastsInDim S16777216x4 (![] : Fin 0 → Fin S16777216x4.rank)
  reducesTo_S16777216x4_S_d0_1 : S16777216x4.ReducesTo [0, 1] S_
  h_S_ : 0 < S_.numel
  bcast_S_S2x480x640 : S_.BroadcastsInDim S2x480x640 (![] : Fin 0 → Fin S2x480x640.rank)
  reducesTo_S2x480x640_S_d0_1_2 : S2x480x640.ReducesTo [0, 1, 2] S_

variable [Facts]

def fn {F : FTy → Type} [FloatOps F] (main_arg0 : FVec F S16777216x4 .f32) (main_arg1 : FVec F S2x480x640 .f32) : IVec S_ 1 :=
  let main_v0 : FVec F S16777216x4 .f32 := Host.absf main_arg0
  let main_cst : FVec F S_ .f32 := constant S_ .f32 0x7F800000#32
  let main_v1 : FVec F S16777216x4 .f32 := broadcastInDim S16777216x4 ![] bcast_S_S16777216x4 main_cst
  let main_v2 : IVec S16777216x4 1 := cmpf .olt main_v0 main_v1
  let main_c : IVec S_ 1 := constantI S_ 1 1#1
  let main_v3 : IVec S_ 1 := (fun x v => Host.reduce IntOp.andi x v reducesTo_S16777216x4_S_d0_1 h_S_) main_v2 main_c
  let main_v4 : FVec F S2x480x640 .f32 := Host.absf main_arg1
  let main_cst_0 : FVec F S_ .f32 := constant S_ .f32 0x7F800000#32
  let main_v5 : FVec F S2x480x640 .f32 := broadcastInDim S2x480x640 ![] bcast_S_S2x480x640 main_cst_0
  let main_v6 : IVec S2x480x640 1 := cmpf .olt main_v4 main_v5
  let main_c_1 : IVec S_ 1 := constantI S_ 1 1#1
  let main_v7 : IVec S_ 1 := (fun x v => Host.reduce IntOp.andi x v reducesTo_S2x480x640_S_d0_1_2 h_S_) main_v6 main_c_1
  let main_v8 : IVec S_ 1 := andi main_v3 main_v7
  main_v8
-- ==== Kernel.lean ====
abbrev S16777216x4 : Shape := ⟨2, ![16777216, 4]⟩
abbrev S2x480x640 : Shape := ⟨3, ![2, 480, 640]⟩
abbrev S2x2x480x640 : Shape := ⟨4, ![2, 2, 480, 640]⟩
abbrev S2048x4 : Shape := ⟨2, ![2048, 4]⟩
abbrev S1x2x480x640 : Shape := ⟨4, ![1, 2, 480, 640]⟩
abbrev S2048x1 : Shape := ⟨2, ![2048, 1]⟩
abbrev S1x640 : Shape := ⟨2, ![1, 640]⟩
abbrev S1x480 : Shape := ⟨2, ![1, 480]⟩
abbrev S2048x640 : Shape := ⟨2, ![2048, 640]⟩
abbrev S2048x480 : Shape := ⟨2, ![2048, 480]⟩
abbrev S480x640 : Shape := ⟨2, ![480, 640]⟩
abbrev S1x1x480x640 : Shape := ⟨4, ![1, 1, 480, 640]⟩

abbrev nBuf : Space → Nat
  | .hbm => 9
  | .vmem => 4
  | .smem => 0
  | _ => 0

abbrev bufTy : (tb : Table) → Fin (tcTables nBuf tb) → BufTy
  | .hbm, ⟨0, _⟩ => ⟨S16777216x4, .f32⟩
  | .hbm, ⟨1, _⟩ => ⟨S2x480x640, .f32⟩
  | .hbm, ⟨2, _⟩ => ⟨S2x2x480x640, .f32⟩
  | .hbm, ⟨3, _⟩ => ⟨S1x2x480x640, .f32⟩
  | .hbm, ⟨4, _⟩ => ⟨S2x480x640, .f32⟩
  | .hbm, ⟨5, _⟩ => ⟨S1x2x480x640, .f32⟩
  | .hbm, ⟨6, _⟩ => ⟨S2x480x640, .f32⟩
  | .hbm, ⟨7, _⟩ => ⟨S2x480x640, .f32⟩
  | .hbm, ⟨8, _⟩ => ⟨S2x480x640, .f32⟩
  | .local _ .vmem, ⟨0, _⟩ => ⟨S2048x4, .f32⟩
  | .local _ .vmem, ⟨1, _⟩ => ⟨S2048x4, .f32⟩
  | .local _ .vmem, ⟨2, _⟩ => ⟨S1x2x480x640, .f32⟩
  | .local _ .vmem, ⟨3, _⟩ => ⟨S1x2x480x640, .f32⟩
  | _, _ => ⟨S16777216x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4096], ![false, false]⟩

def cc0_transform_0 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x480x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x2x480x640_S1x2x480x640_0_0_0_0 : ∀ a, (![0, 0, 0, 0] : Fin 4 → Nat) a + S1x2x480x640.size a ≤ S1x2x480x640.size a
  h_S1x2x480x640 : 0 < S1x2x480x640.numel
  shapeCasts_S1x2x480x640_S2x480x640 : S1x2x480x640.ShapeCasts S2x480x640
  shapeCasts_S2x480x640_S1x2x480x640 : S2x480x640.ShapeCasts S1x2x480x640
  inb_S2048x4_S2048x4_0_0 : ∀ a, (![0, 0] : Fin 2 → Nat) a + S2048x4.size a ≤ S2048x4.size a
  h_S2048x4 : 0 < S2048x4.numel
  slices_S2048x4_o0_0_S2048x1 : S2048x4.Slices ![0, 0] S2048x1
  slices_S2048x4_o0_1_S2048x1 : S2048x4.Slices ![0, 1] S2048x1
  slices_S2048x4_o0_3_S2048x1 : S2048x4.Slices ![0, 3] S2048x1
  natLt_1_32 : 1 < 32
  bitsLt_bf16_f32 : FTy.bits .bf16 < FTy.bits .f32
  iota_S1x640_d1_w32 : S1x640.Iotas .tc 32 [1]
  iota_S1x480_d1_w32 : S1x480.Iotas .tc 32 [1]
  broadcasts_S2048x1_S2048x640 : S2048x1.Broadcasts S2048x640
  broadcasts_S1x640_S2048x640 : S1x640.Broadcasts S2048x640
  broadcasts_S2048x1_S2048x480 : S2048x1.Broadcasts S2048x480
  broadcasts_S1x480_S2048x480 : S1x480.Broadcasts S2048x480
  inb_S1x2x480x640_S1x1x480x640_0_0_0_0 : ∀ a, (![0, 0, 0, 0] : Fin 4 → Nat) a + S1x1x480x640.size a ≤ S1x2x480x640.size a
  h_S1x1x480x640 : 0 < S1x1x480x640.numel
  shapeCasts_S1x1x480x640_S480x640 : S1x1x480x640.ShapeCasts S480x640
  shapeCasts_S480x640_S1x1x480x640 : S480x640.ShapeCasts S1x1x480x640
  inb_S1x2x480x640_S1x1x480x640_0_1_0_0 : ∀ a, (![0, 1, 0, 0] : Fin 4 → Nat) a + S1x1x480x640.size a ≤ S1x2x480x640.size a
  slices_S2x2x480x640_S1x2x480x640_0_0_0_0 : S2x2x480x640.Slices ![0, 0, 0, 0] S1x2x480x640
  slices_S2x2x480x640_S1x2x480x640_1_0_0_0 : S2x2x480x640.Slices ![1, 0, 0, 0] S1x2x480x640
  dot_S2048x480_S2048x640_S480x640_0_0_1_1_n_n_wf : DotDims.WF S2048x480 S2048x640 S480x640 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S16777216x4.size a
  hwx0_0 : ∀ i : grid0.Coords, EltTy.bits .f32 = 32 ∨ (Rect.block (s := S16777216x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x480x640.size a ≤ S2x2x480x640.size a
  hwx0_1 : ∀ i : grid0.Coords, EltTy.bits .f32 = 32 ∨ (Rect.block (s := S2x2x480x640) S1x2x480x640.size (cc0_transform_1 i) (hinb0_1 i)).WholeWords (EltTy.packing .f32)

variable [Facts₀]

def dot_S2048x480_S2048x640_S480x640_0_0_1_1_n_n : DotDims S2048x480 S2048x640 S480x640 where
  lhsContracting := [0]
  rhsContracting := [0]
  lhsNonContracting := [1]
  rhsNonContracting := [1]
  lhsBatch := []
  rhsBatch := []
  wf := dot_S2048x480_S2048x640_S480x640_0_0_1_1_n_n_wf

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x480x640.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x4 : Shape := ⟨2, ![16777216, 4]⟩
abbrev S2x480x640 : Shape := ⟨3, ![2, 480, 640]⟩
abbrev S16777216x1 : Shape := ⟨2, ![16777216, 1]⟩
abbrev S16777216 : Shape := ⟨1, ![16777216]⟩
abbrev S_ : Shape := ⟨0, ![]⟩
abbrev S307200 : Shape := ⟨1, ![307200]⟩
abbrev S1x307200 : Shape := ⟨2, ![1, 307200]⟩
abbrev S2x307200 : Shape := ⟨2, ![2, 307200]⟩

abbrev nBuf : Space → Nat
  | .hbm => 82
  | .vmem => 0
  | .smem => 0
  | _ => 0

abbrev bufTy : (tb : Table) → Fin (tcTables nBuf tb) → BufTy
  | .hbm, ⟨0, _⟩ => ⟨S16777216x4, .f32⟩
  | .hbm, ⟨1, _⟩ => ⟨S2x480x640, .f32⟩
  | .hbm, ⟨2, _⟩ => ⟨S16777216x1, .f32⟩
  | .hbm, ⟨3, _⟩ => ⟨S16777216, .f32⟩
  | .hbm, ⟨4, _⟩ => ⟨S16777216, .i32⟩
  | .hbm, ⟨5, _⟩ => ⟨S16777216x1, .f32⟩
  | .hbm, ⟨6, _⟩ => ⟨S16777216, .f32⟩
  | .hbm, ⟨7, _⟩ => ⟨S16777216, .i32⟩
  | .hbm, ⟨8, _⟩ => ⟨S16777216x1, .f32⟩
  | .hbm, ⟨9, _⟩ => ⟨S16777216, .f32⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S16777216, .i1⟩
  | .hbm, ⟨17, _⟩ => ⟨S_, .i32⟩
  | .hbm, ⟨18, _⟩ => ⟨S16777216, .i32⟩
  | .hbm, ⟨19, _⟩ => ⟨S16777216, .i1⟩
  | .hbm, ⟨20, _⟩ => ⟨S16777216, .i1⟩
  | .hbm, ⟨21, _⟩ => ⟨S_, .i32⟩
  | .hbm, ⟨22, _⟩ => ⟨S16777216, .i32⟩
  | .hbm, ⟨23, _⟩ => ⟨S16777216, .i1⟩
  | .hbm, ⟨24, _⟩ => ⟨S16777216, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S_, .i32⟩
  | .hbm, ⟨31, _⟩ => ⟨S16777216, .i32⟩
  | .hbm, ⟨32, _⟩ => ⟨S16777216, .i32⟩
  | .hbm, ⟨33, _⟩ => ⟨S_, .i32⟩
  | .hbm, ⟨34, _⟩ => ⟨S16777216, .i32⟩
  | .hbm, ⟨35, _⟩ => ⟨S16777216, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S16777216, .i32⟩
  | .hbm, ⟨40, _⟩ => ⟨S16777216, .i32⟩
  | .hbm, ⟨41, _⟩ => ⟨S_, .i32⟩
  | .hbm, ⟨42, _⟩ => ⟨S16777216, .i32⟩
  | .hbm, ⟨43, _⟩ => ⟨S16777216, .i32⟩
  | .hbm, ⟨44, _⟩ => ⟨S16777216, .i32⟩
  | .hbm, ⟨45, _⟩ => ⟨S_, .f32⟩
  | .hbm, ⟨46, _⟩ => ⟨S16777216, .f32⟩
  | .hbm, ⟨47, _⟩ => ⟨S16777216, .i1⟩
  | .hbm, ⟨48, _⟩ => ⟨S16777216, .i1⟩
  | .hbm, ⟨49, _⟩ => ⟨S16777216, .f32⟩
  | .hbm, ⟨50, _⟩ => ⟨S_, .f32⟩
  | .hbm, ⟨51, _⟩ => ⟨S16777216, .f32⟩
  | .hbm, ⟨52, _⟩ => ⟨S16777216, .i1⟩
  | .hbm, ⟨53, _⟩ => ⟨S16777216, .i1⟩
  | .hbm, ⟨54, _⟩ => ⟨S16777216, .f32⟩
  | .hbm, ⟨55, _⟩ => ⟨S_, .f32⟩
  | .hbm, ⟨56, _⟩ => ⟨S307200, .f32⟩
  | .hbm, ⟨57, _⟩ => ⟨S_, .i32⟩
  | .hbm, ⟨58, _⟩ => ⟨S16777216, .i32⟩
  | .hbm, ⟨59, _⟩ => ⟨S16777216, .i1⟩
  | .hbm, ⟨60, _⟩ => ⟨S_, .i32⟩
  | .hbm, ⟨61, _⟩ => ⟨S16777216, .i32⟩
  | .hbm, ⟨62, _⟩ => ⟨S16777216, .i32⟩
  | .hbm, ⟨63, _⟩ => ⟨S16777216, .i32⟩
  | .hbm, ⟨64, _⟩ => ⟨S16777216x1, .i32⟩
  | .hbm, ⟨65, _⟩ => ⟨S307200, .f32⟩
  | .hbm, ⟨66, _⟩ => ⟨S_, .f32⟩
  | .hbm, ⟨67, _⟩ => ⟨S307200, .f32⟩
  | .hbm, ⟨68, _⟩ => ⟨S_, .i32⟩
  | .hbm, ⟨69, _⟩ => ⟨S16777216, .i32⟩
  | .hbm, ⟨70, _⟩ => ⟨S16777216, .i1⟩
  | .hbm, ⟨71, _⟩ => ⟨S_, .i32⟩
  | .hbm, ⟨72, _⟩ => ⟨S16777216, .i32⟩
  | .hbm, ⟨73, _⟩ => ⟨S16777216, .i32⟩
  | .hbm, ⟨74, _⟩ => ⟨S16777216, .i32⟩
  | .hbm, ⟨75, _⟩ => ⟨S16777216x1, .i32⟩
  | .hbm, ⟨76, _⟩ => ⟨S307200, .f32⟩
  | .hbm, ⟨77, _⟩ => ⟨S1x307200, .f32⟩
  | .hbm, ⟨78, _⟩ => ⟨S1x307200, .f32⟩
  | .hbm, ⟨79, _⟩ => ⟨S2x307200, .f32⟩
  | .hbm, ⟨80, _⟩ => ⟨S2x480x640, .f32⟩
  | .hbm, ⟨81, _⟩ => ⟨S2x480x640, .f32⟩
  | _, _ => ⟨S16777216x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_c_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_c_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_c_13 : Ref sig .tc := ⟨.hbm, 68, rfl⟩
abbrev main_v41 : Ref sig .tc := ⟨.hbm, 69, rfl⟩
abbrev main_v42 : Ref sig .tc := ⟨.hbm, 70, rfl⟩
abbrev main_c_14 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  slices_S16777216x4_S16777216x1_0_0 : S16777216x4.Slices ![0, 0] S16777216x1
  shapeCasts_S16777216x1_S16777216 : S16777216x1.ShapeCasts S16777216
  slices_S16777216x4_S16777216x1_0_1 : S16777216x4.Slices ![0, 1] S16777216x1
  slices_S16777216x4_S16777216x1_0_3 : S16777216x4.Slices ![0, 3] S16777216x1
  bcast_S_S16777216 : S_.BroadcastsInDim S16777216 (![] : Fin 0 → Fin S16777216.rank)
  bcast_S_S307200 : S_.BroadcastsInDim S307200 (![] : Fin 0 → Fin S307200.rank)
  bcast_S16777216_S16777216x1_0 : S16777216.BroadcastsInDim S16777216x1 (![0] : Fin 1 → Fin S16777216x1.rank)
  bcast_S307200_S1x307200_1 : S307200.BroadcastsInDim S1x307200 (![1] : Fin 1 → Fin S1x307200.rank)
  concatenates_S1x307200_S1x307200_S2x307200_d0 : Shape.Concatenates [S1x307200, S1x307200] S2x307200 0
  shapeCasts_S2x307200_S2x480x640 : S2x307200.ShapeCasts S2x480x640
  scatter_S307200_S16777216x1_S16777216_n_0_0_1_wf : ScatterDims.WF S307200 S16777216x1 S16777216 [] [0] [0] 1

variable [Facts₀]

def scatter_S307200_S16777216x1_S16777216_n_0_0_1 : ScatterDims S307200 S16777216x1 S16777216 where
  updateWindowDims := []
  insertedWindowDims := [0]
  scatterDimsToOperandDims := [0]
  indexVectorDim := 1
  wf := scatter_S307200_S16777216x1_S16777216_n_0_0_1_wf

class Facts : Prop extends Facts₀ where

variable [Facts]
-- ==== Proof.Cell.lean ====
/-
  One event against one pixel, on bits and extended reals.

  An event's column and row are clamped into the sensor (0..639, 0..479).  The histogram kernel tests the clamped
  row against h and the clamped column against w separately and multiplies the two 0/1 answers (and the event's
  0/1 weight); the scatter reference forms the flat index row * 640 + column and tests it against h * 640 + w.
  Because the clamped coordinates are in range, the flat index does not wrap, is not negative, and determines the
  pair: the two tests agree.
-/
import Idealize.ShloMosaic.PureOps.Ideal

noncomputable section

namespace Cert.Hist

open Idealize.ShloMosaic

/-- A bit read as the real number 0 or 1. -/
def bitR (b : BitVec 1) : EReal := ((b.toNat : ℝ) : EReal)

/-- Widening a bit to 32 bits and reading it signed gives the same 0 or 1. -/
theorem signed_widen (b : BitVec 1) : (((b.setWidth 32).toInt : ℝ) : EReal) = bitR b := by
  have h : (b.setWidth 32).toInt = (b.toNat : Int) := by revert b; decide
  unfold bitR
  rw [h, Int.cast_natCast]

theorem bitR_eq (x y : BitVec 32) : bitR (IntOp.cmpi .eq x y) = if x = y then 1 else 0 := by
  unfold IntOp.cmpi bitR
  by_cases h : x = y
  · subst h; simp
  · simp [h]

/-- A value clamped below by 0 and above by a non-negative bound lies between them. -/
theorem clamp_bounds (c a : BitVec 32) (hc0 : 0 ≤ c.toInt) :
    0 ≤ (IntOp.minsi c (IntOp.maxsi 0#32 a)).toInt ∧ (IntOp.minsi c (IntOp.maxsi 0#32 a)).toInt ≤ c.toInt := by
  have h0 : (0#32 : BitVec 32).toInt = 0 := by decide
  unfold IntOp.minsi IntOp.maxsi
  simp only [BitVec.slt, decide_eq_true_eq]
  split_ifs <;> omega

/-- Read unsigned, the clamped value is at most the bound. -/
theorem clamp_toNat_le (c a : BitVec 32) (n : Nat) (hc : c.toInt = (n : Int)) :
    (IntOp.minsi c (IntOp.maxsi 0#32 a)).toNat ≤ n := by
  obtain ⟨h0, h1⟩ := clamp_bounds c a (by omega)
  generalize IntOp.minsi c (IntOp.maxsi 0#32 a) = r at h0 h1
  have hr := BitVec.toInt_eq_toNat_cond r
  have hlt := r.isLt
  split at hr <;> omega

/-- The flat pixel index as the scatter computes it: row * 640 + column, a negative index wrapped by the array length. -/
def flatIdx (yc xc : BitVec 32) : BitVec 32 :=
  Scalar.select (IntOp.cmpi .slt (IntOp.addi (IntOp.muli yc 640#32) xc) 0#32)
    (IntOp.addi (IntOp.addi (IntOp.muli yc 640#32) xc) 307200#32) (IntOp.addi (IntOp.muli yc 640#32) xc)

/-- For in-range coordinates the flat index is row * 640 + column as a natural number. -/
theorem flatIdx_toInt (yc xc : BitVec 32) (hy : yc.toNat ≤ 479) (hx : xc.toNat ≤ 639) :
    (flatIdx yc xc).toInt = ((yc.toNat * 640 + xc.toNat : Nat) : Int) := by
  have hf : (IntOp.addi (IntOp.muli yc 640#32) xc).toNat = yc.toNat * 640 + xc.toNat := by
    unfold IntOp.addi IntOp.muli
    rw [BitVec.toNat_add, BitVec.toNat_mul]
    show (yc.toNat * 640 % 4294967296 + xc.toNat) % 4294967296 = _
    omega
  unfold flatIdx
  generalize IntOp.addi (IntOp.muli yc 640#32) xc = f at hf
  have hfi : f.toInt = (f.toNat : Int) := by
    have hr := BitVec.toInt_eq_toNat_cond f
    split at hr <;> omega
  have hneg : IntOp.cmpi .slt f 0#32 = 0#1 := by
    unfold IntOp.cmpi
    have h0 : (0#32 : BitVec 32).toInt = 0 := by decide
    have : f.slt 0#32 = false := by
      simp only [BitVec.slt, decide_eq_false_iff_not]; omega
    rw [this]; rfl
  rw [hneg]
  show (if (0#1 : BitVec 1) = 1 then _ else f).toInt = _
  rw [if_neg (by decide), hfi, hf]

/-- The flat index names pixel (h, w) exactly when the clamped row is h and the clamped column is w. -/
theorem flatIdx_eq_iff (yc xc : BitVec 32) (hy : yc.toNat ≤ 479) (hx : xc.toNat ≤ 639) (h : Fin 480) (w : Fin 640) :
    (flatIdx yc xc).toInt = ((h.val * 640 + w.val : Nat) : Int) ↔ (yc = BitVec.ofNat 32 h.val ∧ xc = BitVec.ofNat 32 w.val) := by
  rw [flatIdx_toInt yc xc hy hx]
  have hh := h.isLt
  have hw := w.isLt
  constructor
  · intro e
    have e' : yc.toNat * 640 + xc.toNat = h.val * 640 + w.val := by exact_mod_cast e
    constructor
    · apply BitVec.eq_of_toNat_eq; rw [BitVec.toNat_ofNat]; omega
    · apply BitVec.eq_of_toNat_eq; rw [BitVec.toNat_ofNat]; omega
  · rintro ⟨rfl, rfl⟩
    rw [BitVec.toNat_ofNat, BitVec.toNat_ofNat]
    have a1 : h.val % 2 ^ 32 = h.val := Nat.mod_eq_of_lt (by omega)
    have a2 : w.val % 2 ^ 32 = w.val := Nat.mod_eq_of_lt (by omega)
    rw [a1, a2]

/-- ONE EVENT AGAINST ONE PIXEL: the product of the row test, the weight and the column test is the weight where
    the flat index names the pixel, and zero elsewhere. -/
theorem cell (yc xc : BitVec 32) (hy : yc.toNat ≤ 479) (hx : xc.toNat ≤ 639) (u : EReal) (h : Fin 480) (w : Fin 640) :
    (bitR (IntOp.cmpi .eq yc (BitVec.ofNat 32 h.val)) * u) * bitR (IntOp.cmpi .eq xc (BitVec.ofNat 32 w.val))
      = if (flatIdx yc xc).toInt = ((h.val * 640 + w.val : Nat) : Int) then u else 0 := by
  rw [bitR_eq, bitR_eq]
  by_cases e1 : yc = BitVec.ofNat 32 h.val
  · by_cases e2 : xc = BitVec.ofNat 32 w.val
    · rw [if_pos e1, if_pos e2, if_pos ((flatIdx_eq_iff yc xc hy hx h w).mpr ⟨e1, e2⟩), one_mul, mul_one]
    · rw [if_neg e2, mul_zero, if_neg (fun e => e2 ((flatIdx_eq_iff yc xc hy hx h w).mp e).2)]
  · rw [if_neg e1, zero_mul, zero_mul, if_neg (fun e => e1 ((flatIdx_eq_iff yc xc hy hx h w).mp e).1)]

/-! ## One event: its clamped coordinates, its weight bits, its contribution to a pixel -/

/-- The event's column: its x truncated to an integer and clamped to 0..639. -/
def colOf (x : EReal) : BitVec 32 := IntOp.minsi 639#32 (IntOp.maxsi 0#32 (FloatOps.fptosi (F := Ideal) (φ := .f32) 32 x))
/-- The event's row: its y truncated to an integer and clamped to 0..479. -/
def rowOf (y : EReal) : BitVec 32 := IntOp.minsi 479#32 (IntOp.maxsi 0#32 (FloatOps.fptosi (F := Ideal) (φ := .f32) 32 y))

/-- Whether the truncated (x, y) lies on the sensor: 0 ≤ x < 640 and 0 ≤ y < 480, tested in that order. -/
def onSensor (x y : EReal) : BitVec 1 :=
  IntOp.andi (IntOp.andi (IntOp.andi
    (IntOp.cmpi .sge (FloatOps.fptosi (F := Ideal) (φ := .f32) 32 x) 0#32)
    (IntOp.cmpi .slt (FloatOps.fptosi (F := Ideal) (φ := .f32) 32 x) 640#32))
    (IntOp.cmpi .sge (FloatOps.fptosi (F := Ideal) (φ := .f32) 32 y) 0#32))
    (IntOp.cmpi .slt (FloatOps.fptosi (F := Ideal) (φ := .f32) 32 y) 480#32)

/-- The polarity test of channel 0 (p > 0) and of channel 1 (p ≤ 0). -/
def polBit (pol : Fin 2) (p : EReal) : BitVec 1 :=
  match pol with
  | ⟨0, _⟩ => FloatOps.cmpf (F := Ideal) (φ := .f32) .ogt p (FloatOps.ofBits .f32 0x00000000#32)
  | ⟨1, _⟩ => FloatOps.cmpf (F := Ideal) (φ := .f32) .ole p (FloatOps.ofBits .f32 0x00000000#32)

/-- The event's weight bit in channel pol: on the sensor and of that polarity. -/
def weightBit (pol : Fin 2) (x y p : EReal) : BitVec 1 := IntOp.andi (onSensor x y) (polBit pol p)

theorem colOf_le (x : EReal) : (colOf x).toNat ≤ 639 := clamp_toNat_le _ _ 639 (by decide)
theorem rowOf_le (y : EReal) : (rowOf y).toNat ≤ 479 := clamp_toNat_le _ _ 479 (by decide)

/-- What the event adds to pixel (h, w) of channel pol, as the one-hot product forms it. -/
def onehotTerm (pol : Fin 2) (x y p : EReal) (h : Fin 480) (w : Fin 640) : EReal :=
  (bitR (IntOp.cmpi .eq (rowOf y) (BitVec.ofNat 32 h.val)) * bitR (weightBit pol x y p))
    * bitR (IntOp.cmpi .eq (colOf x) (BitVec.ofNat 32 w.val))

/-- The same, as the scatter forms it: the weight where the flat index names the pixel. -/
def scatterTerm (pol : Fin 2) (x y p : EReal) (h : Fin 480) (w : Fin 640) : EReal :=
  if (flatIdx (rowOf y) (colOf x)).toInt = ((h.val * 640 + w.val : Nat) : Int) then bitR (weightBit pol x y p) else 0

theorem onehotTerm_eq (pol : Fin 2) (x y p : EReal) (h : Fin 480) (w : Fin 640) :
    onehotTerm pol x y p h w = scatterTerm pol x y p h w :=
  cell (rowOf y) (colOf x) (rowOf_le y) (colOf_le x) _ h w

end Cert.Hist

end
-- ==== Proof.LibMatmulSumLT.lean ====
/-
  A matrix product with the LEFT operand contracted on its axis 0:  [K, n]ᵀ x [K, w] -> [n, w]  at the ideal values, for
  any contraction length K and whichever record of dimension numbers spells it.  Read at entry (p, q), the sum over the
  record's own contraction index is the sum over k < K of left(k, p) * right(k, q).  A kernel's matrix-unit product into
  a zero accumulator is that sum.  The record enters only through six facts about its index maps (one contracted axis
  of extent K; both operands contracted on their axis 0; the result's axes the left's axis 1 and the right's axis 1).
-/
import Idealize.ShloMosaic.PureOps.Ideal.Laws
import Idealize.ShloMosaic.Lib.Pipeline.Value
import Idealize.ShloMosaic.Lib.ValueIdx

noncomputable section

namespace Cert.LibMatmulSumLT

open Idealize.ShloMosaic Idealize.ShloMosaic.ValueIdx

/-- The index facts of a product whose two operands are both contracted on their axis 0, with contraction length `K`. -/
structure LeftT {n K w : ℕ} (d : DotDims ⟨2, ![K, n]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (q ⟨0, by rw [rank]; exact Nat.one_pos⟩).val
  l1 : ∀ (i : (⟨2, ![n, w]⟩ : Shape).Idx) (q : d.contr.Idx), (d.lhsIdx i q 1).val = (i 0).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![K, n]⟩ ⟨2, ![K, w]⟩ ⟨2, ![n, w]⟩} (hd : LeftT d)
    (l : (⟨2, ![K, n]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 k p) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 k p := funext fun a => Fin.ext (by
    match a with
    | ⟨0, _⟩ => exact (hd.l0 _ _).trans hk
    | ⟨1, _⟩ => exact hd.l1 _ _)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![K, n]⟩ ⟨2, ![K, w]⟩ ⟨2, ![n, w]⟩} (hd : LeftT d) {φ₁ φ₂ : FTy}
    (prec : Option ContractPrecision) (l : FVec Ideal ⟨2, ![K, n]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 k p) * r (ix2 k q) :=
  (Ideal.matmul_constant_zero_apply d prec l r (ix2 p q)).trans (sum_eq hd l r p q)

end Cert.LibMatmulSumLT

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPoint.lean ====
/-
  One grid point of the histogram kernel, read at a pixel.

  The body turns its 2048 events into two 0/1 matrices — row one-hots scaled by the channel's weight (2048 x 480) and
  column one-hots (2048 x 640) — and multiplies them with the event axis contracted.  Entry (h, w) of the product is
  therefore the sum over the block's events of (row test) * weight * (column test); the body adds it to what the
  accumulator block held at (h, w).
-/
import proofs.«153197_j39444979646671_1_alg».proof.Proof.Gen.KernelIdeal.Skeleton
import proofs.«153197_j39444979646671_1_alg».proof.Proof.Cell
import proofs.«153197_j39444979646671_1_alg».proof.Proof.LibMatmulSumLT
import proofs.«153197_j39444979646671_1_alg».proof.Proof.LibKeepdims
import Idealize.ShloMosaic.Lib.Pipeline.Value
import Idealize.ShloMosaic.Lib.ValueIdx

noncomputable section

namespace Cert.KernelIdeal.Point

open Cert.KernelIdeal Cert.KernelIdeal.Gen Idealize.ShloMosaic Idealize.ShloMosaic.ValueIdx Cert.Hist

/-- The column iota, repeated along the events, reads the column number. -/
theorem iota_col (k : Fin 2048) (w : Fin 640) :
    broadcastTo S2048x640 (iota .tc S1x640 32 [1] iota_S1x640_d1_w32) broadcasts_S1x640_S2048x640 (ix2 k w) = BitVec.ofNat 32 w.val := by
  rw [broadcastTo_apply _ _ (ix2 k w) (ix2 (0 : Fin 1) w) (fun a => by match a with | ⟨0, _⟩ => rfl | ⟨1, _⟩ => rfl)]
  exact iota_single_apply .tc S1x640 32 1 iota_S1x640_d1_w32 (ix2 (0 : Fin 1) w)

/-- The row iota, repeated along the events, reads the row number. -/
theorem iota_row (k : Fin 2048) (h : Fin 480) :
    broadcastTo S2048x480 (iota .tc S1x480 32 [1] iota_S1x480_d1_w32) broadcasts_S1x480_S2048x480 (ix2 k h) = BitVec.ofNat 32 h.val := by
  rw [broadcastTo_apply _ _ (ix2 k h) (ix2 (0 : Fin 1) h) (fun a => by match a with | ⟨0, _⟩ => rfl | ⟨1, _⟩ => rfl)]
  exact iota_single_apply .tc S1x480 32 1 iota_S1x480_d1_w32 (ix2 (0 : Fin 1) h)

/-- Column j of the event block, as the body slices it, read at event k. -/
theorem slice_col (v3 : Vec Ideal S2048x4 .f32) (o : Nat) (ho : o < 4) (hs : S2048x4.Slices ![0, o] S2048x1) (k : Fin 2048) :
    extractStridedSlice S2048x1 ![0, o] v3 hs (ix2 k (0 : Fin 1)) = v3 (ix2 k (⟨o, ho⟩ : Fin 4)) :=
  extractStridedSlice_apply ![0, o] v3 hs (ix2 k (0 : Fin 1)) (ix2 k (⟨o, ho⟩ : Fin 4))
    (fun a => by match a with | ⟨0, _⟩ => exact (Nat.zero_add _).symm | ⟨1, _⟩ => rfl)

/-! The elementwise integer operations and the float-to-integer conversion act entry by entry. -/
theorem minsi_at {s : Shape} {n : Nat} (x y : IVec s n) (i : s.Idx) : minsi x y i = IntOp.minsi (x i) (y i) := rfl
theorem maxsi_at {s : Shape} {n : Nat} (x y : IVec s n) (i : s.Idx) : maxsi x y i = IntOp.maxsi (x i) (y i) := rfl
theorem andi_at {s : Shape} {n : Nat} (x y : IVec s n) (i : s.Idx) : andi x y i = IntOp.andi (x i) (y i) := rfl
theorem cmpi_at {s : Shape} {n : Nat} (p : CmpIPredicate) (x y : IVec s n) (i : s.Idx) : cmpi p x y i = IntOp.cmpi p (x i) (y i) := rfl
theorem fptosi_at {s : Shape} {φ : FTy} (n : Nat) (x : FVec Ideal s φ) (i : s.Idx) : fptosi n x i = FloatOps.fptosi n (x i) := rfl
theorem sitofp_at {s : Shape} {n : Nat} (φ : FTy) (x : IVec s n) (i : s.Idx) :
    (sitofp φ x : FVec Ideal s φ) i = (((x i).toInt : ℝ) : EReal) := rfl
theorem ofBits_at (φ : FTy) (b : BitVec φ.bits) : (Scalar.ofBits φ b : Ideal φ) = FloatOps.ofBits φ b := rfl

/-- The clamped column of event k. -/
theorem col_at (v3 : Vec Ideal S2048x4 .f32) (k : Fin 2048) (w : Fin 640) :
    k0_pay13 (F := Ideal) v3 (ix2 k w) = colOf (v3 (ix2 k (0 : Fin 4))) := by
  unfold k0_pay13 k0_pay7 colOf
  dsimp only
  rw [broadcastTo_a1_ab_apply, minsi_at, maxsi_at, broadcast_apply, broadcast_apply, fptosi_at,
    slice_col v3 0 (by decide) slices_S2048x4_o0_0_S2048x1 k]
  rfl

/-- The clamped row of event k. -/
theorem row_at (v3 : Vec Ideal S2048x4 .f32) (k : Fin 2048) (h : Fin 480) :
    broadcastTo S2048x480 (k0_pay10 (F := Ideal) v3) broadcasts_S2048x1_S2048x480 (ix2 k h) = rowOf (v3 (ix2 k (1 : Fin 4))) := by
  unfold k0_pay10 k0_pay8 rowOf
  dsimp only
  rw [broadcastTo_a1_ab_apply, minsi_at, maxsi_at, broadcast_apply, broadcast_apply, fptosi_at,
    slice_col v3 1 (by decide) slices_S2048x4_o0_1_S2048x1 k]
  rfl

/-- The on-sensor bit of event k. -/
theorem sensor_at (v3 : Vec Ideal S2048x4 .f32) (k : Fin 2048) :
    k0_pay9 (F := Ideal) v3 (ix2 k (0 : Fin 1)) = onSensor (v3 (ix2 k (0 : Fin 4))) (v3 (ix2 k (1 : Fin 4))) := by
  unfold k0_pay9 k0_pay7 k0_pay8 onSensor
  dsimp only
  simp only [andi_at, cmpi_at, broadcast_apply, fptosi_at, slice_col v3 0 (by decide) slices_S2048x4_o0_0_S2048x1 k,
    slice_col v3 1 (by decide) slices_S2048x4_o0_1_S2048x1 k]
  rfl

/-- The weight of event k in channel 0, repeated along the rows. -/
theorem weight0_at (v3 : Vec Ideal S2048x4 .f32) (k : Fin 2048) (h : Fin 480) :
    broadcastTo S2048x480 (k0_pay11 (F := Ideal) v3) broadcasts_S2048x1_S2048x480 (ix2 k h)
      = bitR (weightBit 0 (v3 (ix2 k (0 : Fin 4))) (v3 (ix2 k (1 : Fin 4))) (v3 (ix2 k (3 : Fin 4)))) := by
  rw [broadcastTo_a1_ab_apply]
  unfold k0_pay11 k0_pay6
  dsimp only
  rw [truncf_apply, sitofp_at, extui_apply, andi_at, cmpf_apply, broadcast_apply, sensor_at, ofBits_at,
    slice_col v3 3 (by decide) slices_S2048x4_o0_3_S2048x1 k, signed_widen]
  rfl

/-- The weight of event k in channel 1, repeated along the rows. -/
theorem weight1_at (v3 : Vec Ideal S2048x4 .f32) (k : Fin 2048) (h : Fin 480) :
    broadcastTo S2048x480 (k0_pay12 (F := Ideal) v3) broadcasts_S2048x1_S2048x480 (ix2 k h)
      = bitR (weightBit 1 (v3 (ix2 k (0 : Fin 4))) (v3 (ix2 k (1 : Fin 4))) (v3 (ix2 k (3 : Fin 4)))) := by
  rw [broadcastTo_a1_ab_apply]
  unfold k0_pay12 k0_pay6
  dsimp only
  rw [truncf_apply, sitofp_at, extui_apply, andi_at, cmpf_apply, broadcast_apply, sensor_at, ofBits_at,
    slice_col v3 3 (by decide) slices_S2048x4_o0_3_S2048x1 k, signed_widen]
  rfl

/-- The column one-hot matrix at (event k, column w). -/
theorem onehot_col (v3 : Vec Ideal S2048x4 .f32) (k : Fin 2048) (w : Fin 640) :
    k0_pay1 (F := Ideal) (iota .tc S1x640 32 [1] iota_S1x640_d1_w32) (k0_pay13 (F := Ideal) v3) (ix2 k w)
      = bitR (IntOp.cmpi .eq (colOf (v3 (ix2 k (0 : Fin 4)))) (BitVec.ofNat 32 w.val)) := by
  unfold k0_pay1
  dsimp only
  rw [truncf_apply, sitofp_at, extui_apply, cmpi_at, col_at, iota_col, signed_widen]

/-- The row one-hot matrix at (event k, row h). -/
theorem onehot_row (v3 : Vec Ideal S2048x4 .f32) (k : Fin 2048) (h : Fin 480) :
    k0_pay2 (F := Ideal) (k0_pay10 (F := Ideal) v3) (iota .tc S1x480 32 [1] iota_S1x480_d1_w32) (ix2 k h)
      = bitR (IntOp.cmpi .eq (rowOf (v3 (ix2 k (1 : Fin 4)))) (BitVec.ofNat 32 h.val)) := by
  unfold k0_pay2
  dsimp only
  rw [truncf_apply, sitofp_at, extui_apply, cmpi_at, row_at, iota_row, signed_widen]

/-! ## The product of the two one-hot matrices, and the payloads -/

/-- The product's dimension numbers: both matrices contracted on their event axis. -/
theorem dot_leftT : Cert.LibMatmulSumLT.LeftT dot_S2048x480_S2048x640_S480x640_0_0_1_1_n_n where
  rank := rfl
  size := rfl
  l0 := fun i q => DotDims.lhsIdx_val_of_single _ (cl := 0) rfl i q
  l1 := fun i q => by
    unfold DotDims.lhsIdx
    rw [dif_neg (by decide), dif_pos (by decide)]
    rfl
  r0 := fun i q => DotDims.rhsIdx_val_of_single _ (cr := 0) rfl i q
  r1 := fun i q => by
    unfold DotDims.rhsIdx
    rw [dif_neg (by decide), dif_pos (by decide)]
    rfl

/-- A 480 x 640 matrix stored as a 1 x 1 x 480 x 640 block reads (h, w) at (0, 0, h, w), -/
theorem block_of_matrix {α : Type} (x : S480x640.Idx → α) (h : Fin 480) (w : Fin 640) :
    shapeCast S1x1x480x640 x shapeCasts_S480x640_S1x1x480x640 (ix4 (0 : Fin 1) (0 : Fin 1) h w) = x (ix2 h w) :=
  shapeCast_apply x shapeCasts_S480x640_S1x1x480x640 _ _ (by
    rw [Shape.rowMajor_val_four, Shape.rowMajor_val_two]
    show h.val * 640 + w.val = ((0 * 1 + 0) * 480 + h.val) * 640 + w.val
    omega)

/-- and the block viewed as a matrix reads (0, 0, h, w) at (h, w). -/
theorem matrix_of_block {α : Type} (x : S1x1x480x640.Idx → α) (h : Fin 480) (w : Fin 640) :
    shapeCast S480x640 x shapeCasts_S1x1x480x640_S480x640 (ix2 h w) = x (ix4 (0 : Fin 1) (0 : Fin 1) h w) :=
  shapeCast_apply x shapeCasts_S1x1x480x640_S480x640 _ _ (by
    rw [Shape.rowMajor_val_four, Shape.rowMajor_val_two]
    show ((0 * 1 + 0) * 480 + h.val) * 640 + w.val = h.val * 640 + w.val
    omega)

/-- CHANNEL 0's STORE at pixel (h, w): what the accumulator block held there plus the block's events' one-hot terms. -/
theorem pay3_at (v3 : Vec Ideal S2048x4 .f32) (v60 : Vec Ideal S1x1x480x640 .f32) (h : Fin 480) (w : Fin 640) :
    k0_pay3 (F := Ideal) (k0_pay10 (F := Ideal) v3) (k0_pay11 (F := Ideal) v3) (iota .tc S1x640 32 [1] iota_S1x640_d1_w32)
        (iota .tc S1x480 32 [1] iota_S1x480_d1_w32) (k0_pay13 (F := Ideal) v3) v60 (ix4 (0 : Fin 1) (0 : Fin 1) h w)
      = v60 (ix4 (0 : Fin 1) (0 : Fin 1) h w)
        + ∑ k : Fin 2048, onehotTerm 0 (v3 (ix2 k (0 : Fin 4))) (v3 (ix2 k (1 : Fin 4))) (v3 (ix2 k (3 : Fin 4))) h w := by
  unfold k0_pay3
  dsimp only
  rw [block_of_matrix, addf_apply, matrix_of_block]
  refine congrArg (v60 (ix4 (0 : Fin 1) (0 : Fin 1) h w) + ·) ?_
  refine (Cert.LibMatmulSumLT.matmul_zero_at dot_leftT none _ _ h w).trans ?_
  refine Finset.sum_congr rfl fun k _ => ?_
  rw [mulf_apply, onehot_row, weight0_at, onehot_col]
  rfl

/-- CHANNEL 1's STORE at pixel (h, w), likewise. -/
theorem pay4_at (v3 : Vec Ideal S2048x4 .f32) (v66 : Vec Ideal S1x1x480x640 .f32) (h : Fin 480) (w : Fin 640) :
    k0_pay4 (F := Ideal) (k0_pay10 (F := Ideal) v3) (k0_pay12 (F := Ideal) v3) (iota .tc S1x640 32 [1] iota_S1x640_d1_w32)
        (iota .tc S1x480 32 [1] iota_S1x480_d1_w32) (k0_pay13 (F := Ideal) v3) v66 (ix4 (0 : Fin 1) (0 : Fin 1) h w)
      = v66 (ix4 (0 : Fin 1) (0 : Fin 1) h w)
        + ∑ k : Fin 2048, onehotTerm 1 (v3 (ix2 k (0 : Fin 4))) (v3 (ix2 k (1 : Fin 4))) (v3 (ix2 k (3 : Fin 4))) h w := by
  unfold k0_pay4
  dsimp only
  rw [block_of_matrix, addf_apply, matrix_of_block]
  refine congrArg (v66 (ix4 (0 : Fin 1) (0 : Fin 1) h w) + ·) ?_
  refine (Cert.LibMatmulSumLT.matmul_zero_at dot_leftT none _ _ h w).trans ?_
  refine Finset.sum_congr rfl fun k _ => ?_
  rw [mulf_apply, onehot_row, weight1_at, onehot_col]
  rfl

end Cert.KernelIdeal.Point

end
-- ==== Proof.KernelCases.lean ====
/-
  What one run of the kernel body leaves in the accumulator block, read at a pixel.

  The block is 1 x 2 x 480 x 640: channel 0 and channel 1 of one core's image.  The body stores channel 0 and then
  channel 1, each as (what the block held there) + (the point's one-hot product); at a core's first point it first
  stores zeros over the whole block, so "what the block held" is zero there.  Read at (0, pol, h, w) the stores that
  do not contain the index fall away and the one that does gives its payload.
-/
import proofs.«153197_j39444979646671_1_alg».proof.Proof.Gen.KernelIdeal.Frame
import proofs.«153197_j39444979646671_1_alg».proof.Proof.KernelPoint
import Idealize.ShloMosaic.Lib.Pipeline.Value
import Idealize.ShloMosaic.Lib.Tactic

noncomputable section

namespace Cert.KernelIdeal.Cases

open Cert.KernelIdeal Cert.KernelIdeal.Gen Cert.KernelIdeal.Point Idealize.ShloMosaic Idealize.ShloMosaic.TcCoe
open Idealize.ShloMosaic.ValueIdx Idealize.SL.Sem Cert.Hist

/-! ## The two channel rectangles of the block -/

/-- Channel 0's rectangle places (0, 0, h, w) at (0, 0, h, w); -/
theorem place0 (h : Fin 480) (w : Fin 640) :
    (Rect.unit (s := S1x2x480x640) ![0, 0, 0, 0] ![1, 1, 480, 640] inb_S1x2x480x640_S1x1x480x640_0_0_0_0).emb
      (ix4 (0 : Fin 1) (0 : Fin 1) h w) = ix4 (0 : Fin 1) (0 : Fin 2) h w := by
  funext a
  apply Fin.ext
  rw [Rect.emb_apply]
  match a with
  | ⟨0, _⟩ => rfl
  | ⟨1, _⟩ => rfl
  | ⟨2, _⟩ => show 0 + 1 * h.val = h.val; omega
  | ⟨3, _⟩ => show 0 + 1 * w.val = w.val; omega

/-- channel 1's places it at (0, 1, h, w). -/
theorem place1 (h : Fin 480) (w : Fin 640) :
    (Rect.unit (s := S1x2x480x640) ![0, 1, 0, 0] ![1, 1, 480, 640] inb_S1x2x480x640_S1x1x480x640_0_1_0_0).emb
      (ix4 (0 : Fin 1) (0 : Fin 1) h w) = ix4 (0 : Fin 1) (1 : Fin 2) h w := by
  funext a
  apply Fin.ext
  rw [Rect.emb_apply]
  match a with
  | ⟨0, _⟩ => rfl
  | ⟨1, _⟩ => rfl
  | ⟨2, _⟩ => show 0 + 1 * h.val = h.val; omega
  | ⟨3, _⟩ => show 0 + 1 * w.val = w.val; omega

/-- A channel-0 index is not in channel 1's rectangle, -/
theorem not_mem1 (h : Fin 480) (w : Fin 640) :
    ix4 (0 : Fin 1) (0 : Fin 2) h w ∉
      (Rect.unit (s := S1x2x480x640) ![0, 1, 0, 0] ![1, 1, 480, 640] inb_S1x2x480x640_S1x1x480x640_0_1_0_0).set := by
  rw [Rect.mem_set_unit]
  intro hm
  exact absurd (hm 1).1 (by show ¬(1 : Nat) ≤ 0; omega)

/-- nor a channel-1 index in channel 0's. -/
theorem not_mem0 (h : Fin 480) (w : Fin 640) :
    ix4 (0 : Fin 1) (1 : Fin 2) h w ∉
      (Rect.unit (s := S1x2x480x640) ![0, 0, 0, 0] ![1, 1, 480, 640] inb_S1x2x480x640_S1x1x480x640_0_0_0_0).set := by
  rw [Rect.mem_set_unit]
  intro hm
  exact absurd (hm 1).2 (by show ¬(1 : Nat) < 0 + 1; omega)

section Pieces
variable {Val : EltTy → Type} [∀ e, Nonempty (Val e)] {e : EltTy}

/-- Stores ending with channel 1's leave its payload at a channel-1 pixel. -/
theorem last1 (p1 : _ → Val e) (L : List (View.Piece Val S1x2x480x640 e)) (h : Fin 480) (w : Fin 640) :
    View.canon (⟨Rect.unit (s := S1x2x480x640) ![0, 1, 0, 0] ![1, 1, 480, 640] inb_S1x2x480x640_S1x1x480x640_0_1_0_0, p1⟩ :: L)
      (ix4 (0 : Fin 1) (1 : Fin 2) h w) = p1 (ix4 (0 : Fin 1) (0 : Fin 1) h w) := by
  rw [← place1 h w]
  exact View.canon_cons_emb _ p1 L _

/-- A store to channel 1 does not touch a channel-0 pixel. -/
theorem skip1 (p1 : _ → Val e) (L : List (View.Piece Val S1x2x480x640 e)) (h : Fin 480) (w : Fin 640) :
    View.canon (⟨Rect.unit (s := S1x2x480x640) ![0, 1, 0, 0] ![1, 1, 480, 640] inb_S1x2x480x640_S1x1x480x640_0_1_0_0, p1⟩ :: L)
      (ix4 (0 : Fin 1) (0 : Fin 2) h w) = View.canon L (ix4 (0 : Fin 1) (0 : Fin 2) h w) :=
  View.canon_cons_of_not_mem _ L (not_mem1 h w)

/-- Stores ending with channel 0's leave its payload at a channel-0 pixel. -/
theorem last0 (p0 : _ → Val e) (L : List (View.Piece Val S1x2x480x640 e)) (h : Fin 480) (w : Fin 640) :
    View.canon (⟨Rect.unit (s := S1x2x480x640) ![0, 0, 0, 0] ![1, 1, 480, 640] inb_S1x2x480x640_S1x1x480x640_0_0_0_0, p0⟩ :: L)
      (ix4 (0 : Fin 1) (0 : Fin 2) h w) = p0 (ix4 (0 : Fin 1) (0 : Fin 1) h w) := by
  rw [← place0 h w]
  exact View.canon_cons_emb _ p0 L _

/-- A store to channel 0 does not touch a channel-1 pixel. -/
theorem skip0 (p0 : _ → Val e) (L : List (View.Piece Val S1x2x480x640 e)) (h : Fin 480) (w : Fin 640) :
    View.canon (⟨Rect.unit (s := S1x2x480x640) ![0, 0, 0, 0] ![1, 1, 480, 640] inb_S1x2x480x640_S1x1x480x640_0_0_0_0, p0⟩ :: L)
      (ix4 (0 : Fin 1) (1 : Fin 2) h w) = View.canon L (ix4 (0 : Fin 1) (1 : Fin 2) h w) :=
  View.canon_cons_of_not_mem _ L (not_mem0 h w)

end Pieces

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The zero fill is zero everywhere. -/
theorem fill_at (j : S1x2x480x640.Idx) : k0_pay5 (F := Ideal) j = (0 : EReal) := by
  show Ideal.ofBits .f32 0x00000000#32 = 0
  exact Ideal.ofBits_zero_f32

/-- The same placements, spelt as a load's index. -/
theorem idx0 (h : Fin 480) (w : Fin 640) :
    (Rect.unit (s := S1x2x480x640) ![0, 0, 0, 0] ![1, 1, 480, 640] inb_S1x2x480x640_S1x1x480x640_0_0_0_0).toLoadRect.idx
      (ix4 (0 : Fin 1) (0 : Fin 1) h w) = ix4 (0 : Fin 1) (0 : Fin 2) h w := place0 h w
theorem idx1 (h : Fin 480) (w : Fin 640) :
    (Rect.unit (s := S1x2x480x640) ![0, 1, 0, 0] ![1, 1, 480, 640] inb_S1x2x480x640_S1x1x480x640_0_1_0_0).toLoadRect.idx
      (ix4 (0 : Fin 1) (0 : Fin 1) h w) = ix4 (0 : Fin 1) (1 : Fin 2) h w := place1 h w

theorem two_channels (pol : Fin 2) : pol = 0 ∨ pol = 1 := by
  rcases pol with ⟨v, hv⟩
  have hv' : v = 0 ∨ v = 1 := by omega
  rcases hv' with rfl | rfl
  · exact Or.inl rfl
  · exact Or.inr rfl

/-- A LATER POINT of a core (the block holds xo): each channel gains the point's one-hot terms at each pixel. -/
theorem runB_at (c : Dev nD) (i : grid0.Coords) (arg2 : Memref sig .tc .vmem S2048x4 .f32) (harg2 : arg2.IsWhole)
    (arg3 : Memref sig .tc .vmem S1x2x480x640 .f32) (harg3 : arg3.IsWhole) (hc0 : ¬cond0_0 i)
    (x0 : Vec Ideal S2048x4 .f32) (xo1 : Vec Ideal S1x2x480x640 .f32) (pol : Fin 2) (h : Fin 480) (w : Fin 640) :
    View.canon (kernelRun0_B (F := Ideal) c i arg2 harg2 arg3 harg3 hc0 x0 xo1).1 (ix4 (0 : Fin 1) pol h w)
      = xo1 (ix4 (0 : Fin 1) pol h w)
        + ∑ k : Fin 2048, onehotTerm pol (x0 (ix2 k (0 : Fin 4))) (x0 (ix2 k (1 : Fin 4))) (x0 (ix2 k (3 : Fin 4))) h w := by
  unfold kernelRun0_B
  dsimp only
  sl_unfold_words
  simp only [View.readAt_eq_ld, harg2.read_unread, harg3.read_unread, View.ld_unit_zero (S := S2048x4) hz2]
  rcases two_channels pol with rfl | rfl
  · rw [skip1, last0, pay3_at]
    exact congrArg (fun z => xo1 z + _) (place0 h w)
  · rw [last1, pay4_at]
    exact congrArg (fun z => xo1 z + _) (place1 h w)

/-- A core's FIRST POINT (the block is zeroed first): each channel is the point's one-hot terms at each pixel. -/
theorem runA_at (c : Dev nD) (i : grid0.Coords) (arg2 : Memref sig .tc .vmem S2048x4 .f32) (harg2 : arg2.IsWhole)
    (arg3 : Memref sig .tc .vmem S1x2x480x640 .f32) (harg3 : arg3.IsWhole) (hc0 : cond0_0 i)
    (x0 : Vec Ideal S2048x4 .f32) (pol : Fin 2) (h : Fin 480) (w : Fin 640) :
    View.canon (kernelRun0_A (F := Ideal) c i arg2 harg2 arg3 harg3 hc0 x0).1 (ix4 (0 : Fin 1) pol h w)
      = 0 + ∑ k : Fin 2048, onehotTerm pol (x0 (ix2 k (0 : Fin 4))) (x0 (ix2 k (1 : Fin 4))) (x0 (ix2 k (3 : Fin 4))) h w := by
  unfold kernelRun0_A
  dsimp only
  sl_unfold_words
  simp only [View.readAt_eq_ld, harg2.read_unread, View.ld_unit_zero (S := S2048x4) hz2, View.readCov_eq_canon']
  rcases two_channels pol with rfl | rfl
  · rw [skip1, last0, pay3_at, idx0, View.canon_unit_zero hz4, fill_at]
  · rw [last1, pay4_at, idx1, skip0, View.canon_unit_zero hz4, fill_at]

/-- What a later point leaves in the accumulator block, at a pixel. -/
theorem outB_at (c : Dev nD) (i : grid0.Coords) (arg2 : Memref sig .tc .vmem S2048x4 .f32) (harg2 : arg2.IsWhole)
    (arg3 : Memref sig .tc .vmem S1x2x480x640 .f32) (harg3 : arg3.IsWhole) (hc0 : ¬cond0_0 i)
    (x0 : Vec Ideal S2048x4 .f32) (xo1 : Vec Ideal S1x2x480x640 .f32) (pol : Fin 2) (h : Fin 480) (w : Fin 640) :
    out0_B_1 (F := Ideal) c i arg2 harg2 arg3 harg3 hc0 x0 xo1 (ix4 (0 : Fin 1) pol h w)
      = xo1 (ix4 (0 : Fin 1) pol h w)
        + ∑ k : Fin 2048, onehotTerm pol (x0 (ix2 k (0 : Fin 4))) (x0 (ix2 k (1 : Fin 4))) (x0 (ix2 k (3 : Fin 4))) h w := by
  unfold out0_B_1
  rw [View.read_writes_junk_eq_canon]
  exact runB_at c i arg2 harg2 arg3 harg3 hc0 x0 xo1 pol h w

/-- What a core's first point leaves in the accumulator block, at a pixel. -/
theorem outA_at (c : Dev nD) (i : grid0.Coords) (arg2 : Memref sig .tc .vmem S2048x4 .f32) (harg2 : arg2.IsWhole)
    (arg3 : Memref sig .tc .vmem S1x2x480x640 .f32) (harg3 : arg3.IsWhole) (hc0 : cond0_0 i)
    (x0 : Vec Ideal S2048x4 .f32) (pol : Fin 2) (h : Fin 480) (w : Fin 640) :
    out0_A_1 (F := Ideal) c i arg2 harg2 arg3 harg3 hc0 x0 (ix4 (0 : Fin 1) pol h w)
      = 0 + ∑ k : Fin 2048, onehotTerm pol (x0 (ix2 k (0 : Fin 4))) (x0 (ix2 k (1 : Fin 4))) (x0 (ix2 k (3 : Fin 4))) h w := by
  unfold out0_A_1
  rw [View.read_writes_junk_eq_canon]
  exact runA_at c i arg2 harg2 arg3 harg3 hc0 x0 pol h w

end Cert.KernelIdeal.Cases

end
-- ==== Proof.Sums.lean ====
/-
  Sums of a sequence cut into blocks and groups of blocks, over any additive commutative monoid.

  The events are consumed 2048 at a time (a block), 4096 blocks to a group; within a group an accumulator is reset at
  the first block and then grows by one block sum per block.  So after block n the accumulator holds the block sums
  from the start of n's group through n; at a group's last block it holds the group's total; and the groups' totals
  add up to the sum over all events.
-/
import Mathlib.Algebra.BigOperators.Fin
import Mathlib.Algebra.BigOperators.Intervals

namespace Cert.Hist

open Finset

variable {M : Type*} [AddCommMonoid M]

/-- The sum of block j: the B consecutive terms from j * B on. -/
def blockSum (g : ℕ → M) (B j : ℕ) : M := ∑ k : Fin B, g (j * B + k.val)

/-- The first n * B terms are the first n block sums. -/
theorem sum_range_blocks (g : ℕ → M) (B n : ℕ) : ∑ k ∈ range (n * B), g k = ∑ j ∈ range n, blockSum g B j := by
  induction n with
  | zero => simp
  | succ n ih =>
    rw [Nat.succ_mul, sum_range_add, ih, sum_range_succ, ← Fin.sum_univ_eq_sum_range (fun j => g (n * B + j)) B]
    rfl

/-- What the accumulator holds after block n: the terms from the start of n's group of 4096 through n. -/
def running (b : ℕ → M) (n : ℕ) : M := ∑ j ∈ Ico (n / 4096 * 4096) (n + 1), b j

/-- At a group's first block the accumulator is that block's term alone. -/
theorem running_first (b : ℕ → M) (n : ℕ) (h : n % 4096 = 0) : running b n = b n := by
  unfold running
  rw [show n / 4096 * 4096 = n by omega, Nat.Ico_succ_singleton, sum_singleton]

/-- At any later block of the group it grows by that block's term. -/
theorem running_next (b : ℕ → M) (n : ℕ) (h : ¬(n + 1) % 4096 = 0) : running b (n + 1) = running b n + b (n + 1) := by
  unfold running
  rw [show (n + 1) / 4096 * 4096 = n / 4096 * 4096 by omega, sum_Ico_succ_top (by omega)]

/-- At group c's last block it is the group's total. -/
theorem running_last (b : ℕ → M) (c : ℕ) : running b (c * 4096 + 4095) = ∑ j ∈ Ico (c * 4096) ((c + 1) * 4096), b j := by
  unfold running
  rw [show (c * 4096 + 4095) / 4096 * 4096 = c * 4096 by omega, show c * 4096 + 4095 + 1 = (c + 1) * 4096 by omega]

/-- Two groups' totals are the total over 8192 blocks. -/
theorem two_groups (b : ℕ → M) :
    ∑ j ∈ Ico (0 * 4096) ((0 + 1) * 4096), b j + ∑ j ∈ Ico (1 * 4096) ((1 + 1) * 4096), b j = ∑ j ∈ range 8192, b j := by
  rw [sum_Ico_consecutive _ (by omega) (by omega), range_eq_Ico]

end Cert.Hist
-- ==== Proof.Spec.lean ====
/-
  The event-count image as one function of the event array.

  Event n contributes its 0/1 weight to one pixel of one channel.  Counting the events one way — each core over its
  4096 blocks of 2048 events, the two cores' partial images added — or the other — all 16777216 events in one sum,
  each tested by its flat pixel index — gives the same extended real at every pixel: the terms are the same
  (one event against one pixel) and addition of extended reals is commutative and associative.
-/
import proofs.«153197_j39444979646671_1_alg».proof.Proof.Cell
import proofs.«153197_j39444979646671_1_alg».proof.Proof.Sums
import Idealize.ShloMosaic.Lib.ValueIdx

noncomputable section

namespace Cert.Hist

open Idealize.ShloMosaic Idealize.ShloMosaic.ValueIdx

/-- The event array: 16777216 rows (x, y, t, p). -/
abbrev Events := (⟨2, ![16777216, 4]⟩ : Shape).Idx → EReal

/-- Event n's contribution to pixel (h, w) of channel pol, as a one-hot product; nothing past the last event. -/
def evTerm (X : Events) (pol : Fin 2) (h : Fin 480) (w : Fin 640) (n : ℕ) : EReal :=
  if hn : n < 16777216 then
    onehotTerm pol (X (ix2 (⟨n, hn⟩ : Fin 16777216) (0 : Fin 4))) (X (ix2 (⟨n, hn⟩ : Fin 16777216) (1 : Fin 4)))
      (X (ix2 (⟨n, hn⟩ : Fin 16777216) (3 : Fin 4))) h w
  else 0

/-- One core's partial image: its 4096 blocks of 2048 events. -/
def corePartial (X : Events) (core : ℕ) (pol : Fin 2) (h : Fin 480) (w : Fin 640) : EReal :=
  ∑ j ∈ Finset.Ico (core * 4096) ((core + 1) * 4096), blockSum (evTerm X pol h w) 2048 j

/-- The count image: every event whose flat index names the pixel adds its weight. -/
def count (X : Events) (pol : Fin 2) (h : Fin 480) (w : Fin 640) : EReal :=
  ∑ E : Fin 16777216, scatterTerm pol (X (ix2 E (0 : Fin 4))) (X (ix2 E (1 : Fin 4))) (X (ix2 E (3 : Fin 4))) h w

/-- The two cores' partial images add up to the count image. -/
theorem partials_eq_count (X : Events) (pol : Fin 2) (h : Fin 480) (w : Fin 640) :
    corePartial X 0 pol h w + corePartial X 1 pol h w = count X pol h w := by
  unfold corePartial count
  rw [two_groups, ← sum_range_blocks (evTerm X pol h w) 2048 8192, show 8192 * 2048 = 16777216 by norm_num,
    ← Fin.sum_univ_eq_sum_range]
  refine Finset.sum_congr rfl fun E _ => ?_
  unfold evTerm
  rw [dif_pos E.isLt, onehotTerm_eq]

/-- There are two channels. -/
theorem channel_cases (pol : Fin 2) : pol = 0 ∨ pol = 1 := by
  rcases pol with ⟨v, hv⟩
  have hv' : v = 0 ∨ v = 1 := by omega
  rcases hv' with rfl | rfl
  · exact Or.inl rfl
  · exact Or.inr rfl

end Cert.Hist

end
-- ==== Proof.KernelAcc.lean ====
/-
  The kernel's partial images: what the two cores' accumulator blocks hold when they are written back.

  Grid point t (core t / 4096, block t % 4096 of that core) reads events t * 2048 .. t * 2048 + 2047.  The accumulator
  block is reset at each core's first point and gains one block sum per point, so after point t it holds, at every
  pixel, the block sums from the core's first point through t (induction on the point); it is written back after each
  core's last point, where that is the core's partial image.
-/
import proofs.«153197_j39444979646671_1_alg».proof.Proof.KernelCases
import proofs.«153197_j39444979646671_1_alg».proof.Proof.Spec
import Idealize.ShloMosaic.Lib.Pipeline.Value

noncomputable section

namespace Cert.KernelIdeal.Acc

open Cert.KernelIdeal Cert.KernelIdeal.Gen Cert.KernelIdeal.Cases Idealize.ShloMosaic Idealize.ShloMosaic.TcCoe
open Idealize.ShloMosaic.ValueIdx Idealize.SL.Sem Cert.Hist
open Idealize.ShloMosaic.Pipeline (Dat)

variable (m : (ℓ : Loc nD τ sig) → Buf (Elt Ideal) ℓ) (ρ : Dev nD → PrngReg)

/-- The event array as the kernel is launched with it. -/
abbrev evs (c : Dev nD) : Events := m ((c : Thread nD τ).loc main_arg0)

/-- The index maps, decided over the grid: point t's event block is block t of the array; its accumulator block is
    core t / 4096's. -/
theorem idx_facts : ∀ t : Fin cfg0.N, win0_0.index t (0 : Fin 2) = t.val ∧ win0_0.index t (1 : Fin 2) = 0
    ∧ win0_1.index t (0 : Fin 4) = t.val / 4096 ∧ win0_1.index t (1 : Fin 4) = 0
    ∧ win0_1.index t (2 : Fin 4) = 0 ∧ win0_1.index t (3 : Fin 4) = 0 :=
  (by decide +kernel : ∀ t : Fin grid0.N, _)

/-- Row k of point t's event block is event t * 2048 + k. -/
theorem iblk_at (c : Dev nD) (t : Fin cfg0.N) (k : Fin 2048) (col : Fin 4) (hlt : t.val * 2048 + k.val < 16777216) :
    (iblk m c 0 t : Vec Ideal S2048x4 .f32) (ix2 k col) = evs m c (ix2 (⟨t.val * 2048 + k.val, hlt⟩ : Fin 16777216) col) := by
  obtain ⟨e0, e1, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 2048 + 1 * k.val = t.val * 2048 + k.val; rw [e0]; omega
  | ⟨1, _⟩ => show win0_0.index t (1 : Fin 2) * 4 + 1 * col.val = col.val; rw [e1]; omega

/-- The one-hot terms of point t's events are block t's sum of the event sequence. -/
theorem point_sum (c : Dev nD) (t : Fin cfg0.N) (pol : Fin 2) (h : Fin 480) (w : Fin 640) :
    ∑ k : Fin 2048, onehotTerm pol ((iblk m c 0 t : Vec Ideal S2048x4 .f32) (ix2 k (0 : Fin 4)))
        ((iblk m c 0 t : Vec Ideal S2048x4 .f32) (ix2 k (1 : Fin 4))) ((iblk m c 0 t : Vec Ideal S2048x4 .f32) (ix2 k (3 : Fin 4))) h w
      = blockSum (evTerm (evs m c) pol h w) 2048 t.val := by
  have hN : t.val < 8192 := lt_of_lt_of_eq t.isLt (show cfg0.N = 8192 from N_0)
  unfold blockSum
  refine Finset.sum_congr rfl fun k _ => ?_
  have hk := k.isLt
  have hlt : t.val * 2048 + k.val < 16777216 := by omega
  unfold evTerm
  rw [dif_pos hlt, iblk_at m c t k 0 hlt, iblk_at m c t k 1 hlt, iblk_at m c t k 3 hlt]

/-- At a core's first point the block ends at that point's block sum; -/
theorem step_first (c : Dev nD) (t : Fin cfg0.N) (h0 : t.val % 4096 = 0) (pol : Fin 2) (h : Fin 480) (w : Fin 640) :
    outsAt0 m c t.val t.isLt (ix4 (0 : Fin 1) pol h w) = blockSum (evTerm (evs m c) pol h w) 2048 t.val :=
  (congrFun (outsAt0_A m c t h0) (ix4 (0 : Fin 1) pol h w)).trans
    ((outA_at c (grid0.coords t) (ms0_0 t) (hs0_0 t) (ms0_1 t) (hs0_1 t) ((hcond0_0 t).mpr h0) (iblk m c 0 t) pol h w).trans
      ((zero_add _).trans (point_sum m c t pol h w)))

/-- at a later point it gains that point's block sum. -/
theorem step_next (c : Dev nD) (t : Fin cfg0.N) (h0 : ¬t.val % 4096 = 0) (pol : Fin 2) (h : Fin 480) (w : Fin 640) :
    outsAt0 m c t.val t.isLt (ix4 (0 : Fin 1) pol h w)
      = outsAt0 m c (t.val - 1) (Nat.lt_of_le_of_lt (Nat.sub_le _ _) t.isLt) (ix4 (0 : Fin 1) pol h w)
        + blockSum (evTerm (evs m c) pol h w) 2048 t.val :=
  (congrFun (outsAt0_B m c t h0) (ix4 (0 : Fin 1) pol h w)).trans
    ((outB_at c (grid0.coords t) (ms0_0 t) (hs0_0 t) (ms0_1 t) (hs0_1 t) (fun hh => h0 ((hcond0_0 t).mp hh)) (iblk m c 0 t)
        (outsAt0 m c (t.val - 1) (Nat.lt_of_le_of_lt (Nat.sub_le _ _) t.isLt)) pol h w).trans
      (congrArg (outsAt0 m c (t.val - 1) (Nat.lt_of_le_of_lt (Nat.sub_le _ _) t.isLt) (ix4 (0 : Fin 1) pol h w) + ·)
        (point_sum m c t pol h w)))

/-- THE ACCUMULATOR after point n: the block sums from the core's first point through n. -/
theorem outsAt_eq (c : Dev nD) (pol : Fin 2) (h : Fin 480) (w : Fin 640) : ∀ (n : ℕ) (hn : n < cfg0.N),
    outsAt0 m c n hn (ix4 (0 : Fin 1) pol h w) = running (blockSum (evTerm (evs m c) pol h w) 2048) n
  | 0, hn => by
    rw [running_first _ 0 rfl]
    exact step_first m c ⟨0, hn⟩ rfl pol h w
  | n + 1, hn => by
    by_cases h0 : (n + 1) % 4096 = 0
    · rw [running_first _ _ h0]
      exact step_first m c ⟨n + 1, hn⟩ h0 pol h w
    · rw [running_next _ _ h0, ← outsAt_eq c pol h w n (Nat.lt_of_succ_lt hn)]
      exact step_next m c ⟨n + 1, hn⟩ h0 pol h w

/-- The two partial images as one array: entry (core, pol, h, w) is core's partial image at (pol, h, w). -/
def partials (c : Dev nD) : S2x2x480x640.Idx → EReal :=
  fun i => corePartial (evs m c) (i 0).val (i 1) (i 2) (i 3)

/-- Core q's accumulator block sits at (q, 0, 0, 0) in the array of partial images: the block index (0, pol, h, w)
    is the array index (q, pol, h, w). -/
theorem blk_emb (t : Fin cfg0.N) (pol : Fin 2) (h : Fin 480) (w : Fin 640) (hq : t.val / 4096 < 2) :
    ((cfg0.win 1).blk t).view.emb (ix4 (0 : Fin 1) pol h w) = ix4 (⟨t.val / 4096, hq⟩ : Fin 2) pol h w := by
  obtain ⟨-, -, e0, e1, e2, e3⟩ := idx_facts t
  funext a
  apply Fin.ext
  match a with
  | ⟨0, _⟩ => show win0_1.index t (0 : Fin 4) * 1 + 1 * 0 = t.val / 4096; rw [e0]; omega
  | ⟨1, _⟩ => show win0_1.index t (1 : Fin 4) * 2 + 1 * pol.val = pol.val; rw [e1]; omega
  | ⟨2, _⟩ => show win0_1.index t (2 : Fin 4) * 480 + 1 * h.val = h.val; rw [e2]; omega
  | ⟨3, _⟩ => show win0_1.index t (3 : Fin 4) * 640 + 1 * w.val = w.val; rw [e3]; omega

/-- WHAT A CORE'S LAST POINT WRITES BACK is that core's block of the partial images. -/
theorem flushed_eq (c : Dev nD) (t : Fin cfg0.N) (hf : (cfg0.win 1).flush t = true) :
    (dats m 0 c).flushed 1 t = ((cfg0.win 1).blk t).view.read (Elt Ideal) (partials m c) := by
  have hN : t.val < 8192 := lt_of_lt_of_eq t.isLt (show cfg0.N = 8192 from N_0)
  have h5 : t.val % 4096 = 4095 := (flush0_1 t).mp hf
  show (cfg0.win 1).cut (grid0.coords t) ((dats m 0 c).after 1 t) = _
  rw [after0_1]
  show (outsAt0 m c t.val t.isLt : S1x2x480x640.Idx → EReal)
    = fun j : S1x2x480x640.Idx => partials m c (((cfg0.win 1).blk t).view.emb j)
  funext j
  obtain ⟨a, pol, h, w, rfl⟩ : ∃ (a : Fin 1) (pol : Fin 2) (h : Fin 480) (w : Fin 640), j = ix4 a pol h w :=
    ⟨j 0, j 1, j 2, j 3, eq_ix4 j⟩
  obtain rfl : a = 0 := Subsingleton.elim _ _
  rw [outsAt_eq m c pol h w t.val t.isLt, blk_emb t pol h w (by omega)]
  have hl := running_last (blockSum (evTerm (evs m c) pol h w) 2048) (t.val / 4096)
  rw [show t.val / 4096 * 4096 + 4095 = t.val by omega] at hl
  exact hl

/-- An index of the partial images is in point t's block iff each coordinate is in the block's range. -/
theorem mem_blk (t : Fin cfg0.N) (i : S2x2x480x640.Idx) :
    i ∈ ((cfg0.win 1).blk t).view.set ↔ ∀ a : Fin 4, win0_1.index t a * S1x2x480x640.size a ≤ (i a).val
      ∧ (i a).val < win0_1.index t a * S1x2x480x640.size a + S1x2x480x640.size a := by
  show i ∈ ((View.whole main_v0).slice (win0_1.rect t)).set ↔ _
  rw [View.set_slice_whole, Rect.mem_set_unit]
  exact Iff.rfl

/-- Every index of the partial images is in the block some core's last point writes back. -/
theorem cover (i : S2x2x480x640.Idx) :
    ∃ t : Fin cfg0.N, (cfg0.win 1).flush t = true ∧ i ∈ ((cfg0.win 1).blk t).view.set := by
  have h0 : (i 0).val < 2 := (i 0).isLt
  have h1 : (i 1).val < 2 := (i 1).isLt
  have h2 : (i 2).val < 480 := (i 2).isLt
  have h3 : (i 3).val < 640 := (i 3).isLt
  have hlt : (i 0).val * 4096 + 4095 < cfg0.N := by rw [show cfg0.N = 8192 from N_0]; omega
  obtain ⟨t, ht⟩ : ∃ t : Fin cfg0.N, t.val = (i 0).val * 4096 + 4095 := ⟨⟨_, hlt⟩, rfl⟩
  refine ⟨t, (flush0_1 t).mpr (by omega), ?_⟩
  obtain ⟨-, -, e0, e1, e2, e3⟩ := idx_facts t
  rw [mem_blk]
  intro a
  match a with
  | ⟨0, _⟩ =>
    show win0_1.index t (0 : Fin 4) * 1 ≤ (i 0).val ∧ (i 0).val < win0_1.index t (0 : Fin 4) * 1 + 1
    rw [e0]; omega
  | ⟨1, _⟩ =>
    show win0_1.index t (1 : Fin 4) * 2 ≤ (i 1).val ∧ (i 1).val < win0_1.index t (1 : Fin 4) * 2 + 2
    rw [e1]; omega
  | ⟨2, _⟩ =>
    show win0_1.index t (2 : Fin 4) * 480 ≤ (i 2).val ∧ (i 2).val < win0_1.index t (2 : Fin 4) * 480 + 480
    rw [e2]; omega
  | ⟨3, _⟩ =>
    show win0_1.index t (3 : Fin 4) * 640 ≤ (i 3).val ∧ (i 3).val < win0_1.index t (3 : Fin 4) * 640 + 640
    rw [e3]; omega

/-- THE PARTIAL IMAGES after the run: the two cores' last points cover the array. -/
theorem final (c : Dev nD) : (dats m 0 c).arrAt 1 cfg0.N = partials m c :=
  (dats m 0 c).arrAt_eq_of_cover 1 (partials m c) (flushed_eq m c) cover

end Cert.KernelIdeal.Acc

end
-- ==== Proof.KernelRun.lean ====
/-
  The kernel program's result: the state image plus the sum of the two cores' partial images.

  After the region the host slices the array of partial images into core 0's and core 1's block, views each as a
  2 x 480 x 640 image, adds them, and adds the state image.
-/
import proofs.«153197_j39444979646671_1_alg».proof.Proof.KernelAcc
import Idealize.ShloMosaic.Lib.Pipeline.Value
import Idealize.ShloMosaic.Lib.StableHlo.Run
import Idealize.ShloMosaic.Lib.Tactic

noncomputable section

namespace Cert.KernelIdeal.Acc

open Cert.KernelIdeal Cert.KernelIdeal.Gen Idealize.ShloMosaic Idealize.ShloMosaic.TcCoe
open Idealize.ShloMosaic.ValueIdx Idealize.SL.Sem Cert.Hist
open Idealize.ShloMosaic.Pipeline (Dat)

variable (m : (ℓ : Loc nD τ sig) → Buf (Elt Ideal) ℓ) (ρ : Dev nD → PrngReg)

/-- A 1 x 2 x 480 x 640 block viewed as a 2 x 480 x 640 image reads (0, pol, h, w) at (pol, h, w). -/
theorem image_of_block {α : Type} (x : S1x2x480x640.Idx → α) (pol : Fin 2) (h : Fin 480) (w : Fin 640) :
    shapeCast S2x480x640 x shapeCasts_S1x2x480x640_S2x480x640 (ix3 pol h w) = x (ix4 (0 : Fin 1) pol h w) :=
  shapeCast_apply x shapeCasts_S1x2x480x640_S2x480x640 _ _ (by
    rw [Shape.rowMajor_val_four, Shape.rowMajor_val_three]
    show ((0 * 2 + pol.val) * 480 + h.val) * 640 + w.val = (pol.val * 480 + h.val) * 640 + w.val
    omega)

/-- Core q's block of the array of partial images. -/
theorem core_block {α : Type} (x : S2x2x480x640.Idx → α) (q : Nat) (hq : q < 2) (hs : S2x2x480x640.Slices ![q, 0, 0, 0] S1x2x480x640)
    (pol : Fin 2) (h : Fin 480) (w : Fin 640) :
    extractStridedSlice S1x2x480x640 ![q, 0, 0, 0] x hs (ix4 (0 : Fin 1) pol h w) = x (ix4 (⟨q, hq⟩ : Fin 2) pol h w) :=
  extractStridedSlice_apply ![q, 0, 0, 0] x hs (ix4 (0 : Fin 1) pol h w) (ix4 (⟨q, hq⟩ : Fin 2) pol h w) (fun a => by
    match a with
    | ⟨0, _⟩ => rfl
    | ⟨1, _⟩ => exact (Nat.zero_add _).symm
    | ⟨2, _⟩ => exact (Nat.zero_add _).symm
    | ⟨3, _⟩ => exact (Nat.zero_add _).symm)

/-- The state image as the kernel is launched with it. -/
abbrev img (c : Dev nD) : S2x480x640.Idx → EReal := m ((c : Thread nD τ).loc main_arg1)

/-- The kernel program's result image. -/
def result (c : Dev nD) : S2x480x640.Idx → EReal :=
  fun i => img m c i + (corePartial (evs m c) 0 (i 0) (i 1) (i 2) + corePartial (evs m c) 1 (i 0) (i 1) (i 2))

/-- The host operations after the region compute it from the partial images. -/
theorem tail_eq (c : Dev nD) : Pipeline.afterTail₀ cfgs (dats m) 0 (V0 m) [hostOps1] c main_v6 = result m c := by
  unfold Pipeline.afterTail₀
  show StableHlo.after hostOps1 _ (Proc.devRef .tc main_v6) = _
  after_results
  have eP : Pipeline.withArrays (cfgs 0).spec c (V0 m c) (fun w => (dats m 0 c).arrAt w (cfgs 0).N) (Proc.devRef .tc main_v0)
      = partials m c :=
    (Pipeline.withArrays_arr spec0 launch0.win.arr_inj c _ _ 1).trans (final m c)
  have eA : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [eP, eA]
  funext i
  obtain ⟨pol, h, w, rfl⟩ : ∃ (pol : Fin 2) (h : Fin 480) (w : Fin 640), i = ix3 pol h w := ⟨i 0, i 1, i 2, eq_ix3 i⟩
  show img m c (ix3 pol h w)
      + (shapeCast S2x480x640 (extractStridedSlice S1x2x480x640 ![0, 0, 0, 0] (partials m c) slices_S2x2x480x640_S1x2x480x640_0_0_0_0)
            shapeCasts_S1x2x480x640_S2x480x640 (ix3 pol h w)
          + shapeCast S2x480x640 (extractStridedSlice S1x2x480x640 ![1, 0, 0, 0] (partials m c) slices_S2x2x480x640_S1x2x480x640_1_0_0_0)
            shapeCasts_S1x2x480x640_S2x480x640 (ix3 pol h w)) = _
  rw [image_of_block, image_of_block, core_block _ 0 (by decide), core_block _ 1 (by decide)]
  rfl

/-- THE KERNEL PROGRAM'S RUN: it terminates with the result image in its result buffer and its arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Acc

end
-- ==== Proof.LibScatterRows.lean ====
/-
  A scatter-add of ROWS, read at an entry. The operand is [N, C] (or [N]); update row e carries one scalar
  index idx[e, 0], read as a signed integer, and is added to operand row idx[e, 0] when that is a row of the
  operand (0 ≤ idx[e, 0] < N) and dropped otherwise. So entry (n, c) of the result is the operand's entry plus
  the sum over all update rows e of: the update's entry (e, c) if idx[e, 0] = n, else 0. The proof reads the
  dimension numbers once — where update index (e, c) lands — and then collapses the sum over update indices
  to the sum over update rows; nothing depends on the sizes N, C, E.
  Then: three arrays joined along the columns, read at a column of each piece.
-/
import Idealize.ShloMosaic.PureOps.Ideal.Laws
import Idealize.ShloMosaic.Lib.ValueIdx
import Idealize.ShloMosaic.Lib.Pipeline.Value
import Idealize.ShloMosaic.Lib.ValueLayout

noncomputable section
open scoped BigOperators
namespace Cert.Val
open Idealize.ShloMosaic Idealize.ShloMosaic.ValueIdx

/-! ## Rows of a rank-2 operand -/

/-- The dimension numbers of a row scatter: operand [N, C], indices [E, 1] with the index vector on axis 1 (one
    scalar per update row) naming operand axis 0, updates [E, C] whose axis 1 is the window (a whole row). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update (e, c) starts at the index idx[e, 0], read signed. -/
theorem rowDims_start_zero (e : Fin E) (c : Fin C) (idx : IVec ⟨2, ![E, 1]⟩ w) :
    (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowDims_start_one (e : Fin E) (c : Fin C) (idx : IVec ⟨2, ![E, 1]⟩ w) :
    (rowDims N C E wf).start (ix2 e c) idx 1 = 0 := rfl

/-- The row axis is inserted: no window coordinate there. -/
theorem rowDims_window_zero (e : Fin E) (c : Fin C) :
    (rowDims N C E wf).window (ix2 e c) 0 = 0 := rfl

/-- On the column axis the window coordinate is the update's column. -/
theorem rowDims_window_one (e : Fin E) (c : Fin C) :
    (rowDims N C E wf).window (ix2 e c) 1 = c.val := rfl

/-- WHERE AN UPDATE LANDS: update (e, c) lands at operand entry (n, c') exactly when its row's index is n and
    the columns agree (an index outside [0, N) lands nowhere). -/
theorem rowDims_resultIdx?_eq_some_iff (e : Fin E) (c : Fin C) (n : Fin N) (c' : Fin C) (idx : IVec ⟨2, ![E, 1]⟩ w) :
    (rowDims N C E wf).resultIdx? (ix2 e c) idx = some (ix2 n c') ↔
      ((idx (ix2 e (0 : Fin 1))).toInt = (n.val : Int) ∧ c = c') := by
  have hs0 := rowDims_start_zero wf e c idx
  have hs1 := rowDims_start_one wf e c idx
  have hw0 := rowDims_window_zero wf e c
  have hw1 := rowDims_window_one wf e c
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      have f1 := congrArg Fin.val (congrFun hf 1)
      simp only [hs0, hw0, hs1, hw1] at f0 f1
      refine ⟨?_, Fin.ext ?_⟩
      · change (v + ((0 : Nat) : Int)).toNat = n.val at f0
        omega
      · change (((0 : Int) + (c.val : Int))).toNat = c'.val at f1
        omega
    · rintro ⟨hv, rfl⟩
      funext a
      refine Fin.ext ?_
      match a with
      | ⟨0, _⟩ =>
        show ((rowDims N C E wf).start (ix2 e c) idx 0 + ((rowDims N C E wf).window (ix2 e c) 0 : Int)).toNat = n.val
        rw [hs0, hw0]; omega
      | ⟨1, _⟩ =>
        show ((rowDims N C E wf).start (ix2 e c) idx 1 + ((rowDims N C E wf).window (ix2 e c) 1 : Int)).toNat = c.val
        rw [hs1, hw1]; omega
  · next h =>
    constructor
    · intro hf; exact absurd hf (by simp)
    · rintro ⟨hv, rfl⟩
      exfalso; apply h
      intro a
      match a with
      | ⟨0, _⟩ =>
        show 0 ≤ (rowDims N C E wf).start (ix2 e c) idx 0 + ((rowDims N C E wf).window (ix2 e c) 0 : Int) ∧
          (rowDims N C E wf).start (ix2 e c) idx 0 + ((rowDims N C E wf).window (ix2 e c) 0 : Int) < (N : Int)
        rw [hs0, hw0]; have := n.isLt; omega
      | ⟨1, _⟩ =>
        show 0 ≤ (rowDims N C E wf).start (ix2 e c) idx 1 + ((rowDims N C E wf).window (ix2 e c) 1 : Int) ∧
          (rowDims N C E wf).start (ix2 e c) idx 1 + ((rowDims N C E wf).window (ix2 e c) 1 : Int) < (C : Int)
        rw [hs1, hw1]; have := c.isLt; omega

/-- THE ROW SCATTER-ADD AT AN ENTRY: the operand's entry plus, over the update rows whose index is the entry's
    row, the update's entry in the same column. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowDims N C E wf) x idx upd (ix2 n c) =
      x (ix2 n c) + ∑ e : Fin E, if (idx (ix2 e (0 : Fin 1))).toInt = (n.val : Int) then upd (ix2 e c) else 0 := by
  show x (ix2 n c) + ∑ j ∈ Finset.univ.filter (fun j => (rowDims N C E wf).resultIdx? j idx = some (ix2 n c)), upd j = _
  congr 1
  rw [Finset.sum_filter, sum_idx2]
  refine Finset.sum_congr rfl fun e _ => ?_
  simp only [rowDims_resultIdx?_eq_some_iff]
  by_cases hv : (idx (ix2 e (0 : Fin 1))).toInt = (n.val : Int)
  · simp only [hv, true_and, if_true]
    rw [Finset.sum_ite_eq' Finset.univ c]
    simp
  · simp only [hv, false_and, if_false]
    exact Finset.sum_const_zero

/-! ## The same for a rank-1 operand: one scalar update per index -/

/-- The dimension numbers of a scatter of scalars: operand [N], indices [E, 1], updates [E] (no window axis). -/
abbrev rowDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

/-- The window of update e starts at the index idx[e, 0], read signed. -/
theorem rowDims1_start_zero (e : Fin E) (idx : IVec ⟨2, ![E, 1]⟩ w) :
    (rowDims1 N E wf1).start (ix1 e) idx 0 = (idx (ix2 e (0 : Fin 1))).toInt := by
  unfold ScatterDims.start
  rw [dif_pos (show (0 : Fin 1) ∈ (rowDims1 N E wf1).scatterDimsToOperandDims from List.mem_singleton.mpr rfl)]
  have hsi : (rowDims1 N E wf1).siIdx (ix1 e) ⟨List.idxOf (0 : Fin 1) (rowDims1 N E wf1).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem rowDims1_window_zero (e : Fin E) : (rowDims1 N E wf1).window (ix1 e) 0 = 0 := rfl

/-- Update e lands at operand entry n exactly when its index is n. -/
theorem rowDims1_resultIdx?_eq_some_iff (e : Fin E) (n : Fin N) (idx : IVec ⟨2, ![E, 1]⟩ w) :
    (rowDims1 N E wf1).resultIdx? (ix1 e) idx = some (ix1 n) ↔ (idx (ix2 e (0 : Fin 1))).toInt = (n.val : Int) := by
  have hs0 := rowDims1_start_zero wf1 e idx
  have hw0 := rowDims1_window_zero wf1 e
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      simp only [hs0, hw0] at f0
      change (v + ((0 : Nat) : Int)).toNat = n.val at f0
      omega
    · intro hv
      funext a
      refine Fin.ext ?_
      match a with
      | ⟨0, _⟩ =>
        show ((rowDims1 N E wf1).start (ix1 e) idx 0 + ((rowDims1 N E wf1).window (ix1 e) 0 : Int)).toNat = n.val
        rw [hs0, hw0]; omega
  · next h =>
    constructor
    · intro hf; exact absurd hf (by simp)
    · intro hv
      exfalso; apply h
      intro a
      match a with
      | ⟨0, _⟩ =>
        show 0 ≤ (rowDims1 N E wf1).start (ix1 e) idx 0 + ((rowDims1 N E wf1).window (ix1 e) 0 : Int) ∧
          (rowDims1 N E wf1).start (ix1 e) idx 0 + ((rowDims1 N E wf1).window (ix1 e) 0 : Int) < (N : Int)
        rw [hs0, hw0]; have := n.isLt; omega

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => ?_)
  exact congrArg f (eq_ix1 i)

/-- THE SCALAR SCATTER-ADD AT AN ENTRY: the operand's entry plus the updates whose index is the entry. -/
theorem scatterAdd_rows1_apply {φ : FTy} (x : FVec Ideal ⟨1, ![N]⟩ φ) (idx : IVec ⟨2, ![E, 1]⟩ w)
    (upd : FVec Ideal ⟨1, ![E]⟩ φ) (n : Fin N) :
    Host.scatterAdd (F := Ideal) (rowDims1 N E wf1) x idx upd (ix1 n) =
      x (ix1 n) + ∑ e : Fin E, if (idx (ix2 e (0 : Fin 1))).toInt = (n.val : Int) then upd (ix1 e) else 0 := by
  show x (ix1 n) + ∑ j ∈ Finset.univ.filter (fun j => (rowDims1 N E wf1).resultIdx? j idx = some (ix1 n)), upd j = _
  congr 1
  rw [Finset.sum_filter, sum_idx1]
  refine Finset.sum_congr rfl fun e _ => ?_
  simp only [rowDims1_resultIdx?_eq_some_iff]

/-! ## Three arrays joined along the columns, read at a column of each -/

section Concat3
variable {α : Type} {R a b c t : Nat}
  (x₁ : (⟨2, ![R, a]⟩ : Shape).Idx → α) (x₂ : (⟨2, ![R, b]⟩ : Shape).Idx → α) (x₃ : (⟨2, ![R, c]⟩ : Shape).Idx → α)
  (h : Shape.Concatenates [⟨2, ![R, a]⟩, ⟨2, ![R, b]⟩, ⟨2, ![R, c]⟩] ⟨2, ![R, t]⟩ 1)

/-- A column of the first piece. -/
theorem concat3_cols_first (r : Fin R) (q : Fin a) (hq : q.val < t) :
    concatenate ⟨2, ![R, t]⟩ 1 [⟨⟨2, ![R, a]⟩, x₁⟩, ⟨⟨2, ![R, b]⟩, x₂⟩, ⟨⟨2, ![R, c]⟩, x₃⟩] h (ix2 r ⟨q.val, hq⟩) = x₁ (ix2 r q) :=
  concatenate_apply_piece 1 [⟨⟨2, ![R, a]⟩, x₁⟩, ⟨⟨2, ![R, b]⟩, x₂⟩, ⟨⟨2, ![R, c]⟩, x₃⟩] h (ix2 r ⟨q.val, hq⟩)
    0 (by simp) ⟨2, ![R, a]⟩ x₁ rfl rfl 0 rfl (ix2 r q)
    (fun ax hax => match ax with
      | ⟨0, _⟩ => rfl
      | ⟨1, _⟩ => absurd rfl hax)
    (by show 0 + q.val = q.val; omega)

/-- A column of the second piece: the first piece's width further on. -/
theorem concat3_cols_second (r : Fin R) (q : Fin b) (hq : a + q.val < t) :
    concatenate ⟨2, ![R, t]⟩ 1 [⟨⟨2, ![R, a]⟩, x₁⟩, ⟨⟨2, ![R, b]⟩, x₂⟩, ⟨⟨2, ![R, c]⟩, x₃⟩] h (ix2 r ⟨a + q.val, hq⟩) = x₂ (ix2 r q) :=
  concatenate_apply_piece 1 [⟨⟨2, ![R, a]⟩, x₁⟩, ⟨⟨2, ![R, b]⟩, x₂⟩, ⟨⟨2, ![R, c]⟩, x₃⟩] h (ix2 r ⟨a + q.val, hq⟩)
    1 (by simp) ⟨2, ![R, b]⟩ x₂ rfl rfl a (by simp) (ix2 r q)
    (fun ax hax => match ax with
      | ⟨0, _⟩ => rfl
      | ⟨1, _⟩ => absurd rfl hax)
    rfl

/-- A column of the third piece: the first two pieces' widths further on. -/
theorem concat3_cols_third (r : Fin R) (q : Fin c) (hq : a + b + q.val < t) :
    concatenate ⟨2, ![R, t]⟩ 1 [⟨⟨2, ![R, a]⟩, x₁⟩, ⟨⟨2, ![R, b]⟩, x₂⟩, ⟨⟨2, ![R, c]⟩, x₃⟩] h (ix2 r ⟨a + b + q.val, hq⟩) = x₃ (ix2 r q) :=
  concatenate_apply_piece 1 [⟨⟨2, ![R, a]⟩, x₁⟩, ⟨⟨2, ![R, b]⟩, x₂⟩, ⟨⟨2, ![R, c]⟩, x₃⟩] h (ix2 r ⟨a + b + q.val, hq⟩)
    2 (by simp) ⟨2, ![R, c]⟩ x₃ rfl rfl (a + b) (by simp) (ix2 r q)
    (fun ax hax => match ax with
      | ⟨0, _⟩ => rfl
      | ⟨1, _⟩ => absurd rfl hax)
    rfl

end Concat3

end Cert.Val
-- ==== Proof.LibCat2.lean ====
/-
  Rank-2 arrays cut and joined, read at coordinates, for any sizes and any element type.

  * a slice of an n x w array from offsets (o0, o1), read at (p, q), is the array at (o0 + p, o1 + q);
  * two blocks stacked along the rows (n1 rows over n2 rows), read at (p, q), is the upper block at (p, q) when
    p < n1 and the lower block at (p - n1, q) otherwise;
  * two blocks set side by side along the columns (w1 columns, then w2), read at (p, q), is the left block at (p, q)
    when q < w1 and the right block at (p, q - w1) otherwise.
-/
import Idealize.ShloMosaic.Lib.Pipeline.Value
import Idealize.ShloMosaic.Lib.ValueIdx

namespace Cert.LibCat2

open Idealize.ShloMosaic Idealize.ShloMosaic.ValueIdx

variable {α : Type}

/-- A slice from offsets (o0, o1) read at (p, q) is the array at (o0 + p, o1 + q). -/
theorem slice_apply {n w n' w' : ℕ} (o0 o1 : ℕ) (x : (⟨2, ![n, w]⟩ : Shape).Idx → α)
    (h : (⟨2, ![n, w]⟩ : Shape).Slices ![o0, o1] (⟨2, ![n', w']⟩ : Shape)) (p : Fin n') (q : Fin w')
    (hp : o0 + p.val < n) (hq : o1 + q.val < w) :
    extractStridedSlice (⟨2, ![n', w']⟩ : Shape) ![o0, o1] x h (ix2 p q) = x (ix2 (⟨o0 + p.val, hp⟩ : Fin n) (⟨o1 + q.val, hq⟩ : Fin w)) :=
  extractStridedSlice_apply ![o0, o1] x h (ix2 p q) (ix2 (⟨o0 + p.val, hp⟩ : Fin n) (⟨o1 + q.val, hq⟩ : Fin w))
    (fun a => match a with
      | ⟨0, _⟩ => rfl
      | ⟨1, _⟩ => rfl)

/-- Two blocks stacked along the rows, read at (p, q): the upper block when p is one of its rows, else the lower block
    at row p - n1. -/
theorem rows_apply {n1 n2 n w : ℕ} (hn : n = n1 + n2) (x1 : (⟨2, ![n1, w]⟩ : Shape).Idx → α) (x2 : (⟨2, ![n2, w]⟩ : Shape).Idx → α)
    (h : Shape.Concatenates [(⟨2, ![n1, w]⟩ : Shape), (⟨2, ![n2, w]⟩ : Shape)] (⟨2, ![n, w]⟩ : Shape) (0 : Fin 2))
    (p : Fin n) (q : Fin w) :
    concatenate (⟨2, ![n, w]⟩ : Shape) (0 : Fin 2) [⟨(⟨2, ![n1, w]⟩ : Shape), x1⟩, ⟨(⟨2, ![n2, w]⟩ : Shape), x2⟩] h (ix2 p q)
      = if hp : p.val < n1 then x1 (ix2 (⟨p.val, hp⟩ : Fin n1) q)
        else x2 (ix2 (⟨p.val - n1, by have := p.isLt; omega⟩ : Fin n2) q) := by
  split
  · rename_i hp
    exact concatenate_pair_apply_left (0 : Fin 2) x1 x2 h (ix2 p q) rfl (ix2 (⟨p.val, hp⟩ : Fin n1) q)
      (fun b => match b with
        | ⟨0, _⟩ => rfl
        | ⟨1, _⟩ => rfl)
  · rename_i hp
    exact concatenate_pair_apply_right (0 : Fin 2) x1 x2 h (ix2 p q) rfl rfl
      (ix2 (⟨p.val - n1, by have := p.isLt; omega⟩ : Fin n2) q)
      (fun b hb => match b, hb with
        | ⟨0, _⟩, hb => absurd rfl hb
        | ⟨1, _⟩, _ => rfl)
      (by show (p.val - n1) + n1 = p.val; omega)

/-- Two blocks set side by side along the columns, read at (p, q): the left block when q is one of its columns, else
    the right block at column q - w1. -/
theorem cols_apply {w1 w2 n w : ℕ} (hw : w = w1 + w2) (x1 : (⟨2, ![n, w1]⟩ : Shape).Idx → α) (x2 : (⟨2, ![n, w2]⟩ : Shape).Idx → α)
    (h : Shape.Concatenates [(⟨2, ![n, w1]⟩ : Shape), (⟨2, ![n, w2]⟩ : Shape)] (⟨2, ![n, w]⟩ : Shape) (1 : Fin 2))
    (p : Fin n) (q : Fin w) :
    concatenate (⟨2, ![n, w]⟩ : Shape) (1 : Fin 2) [⟨(⟨2, ![n, w1]⟩ : Shape), x1⟩, ⟨(⟨2, ![n, w2]⟩ : Shape), x2⟩] h (ix2 p q)
      = if hq : q.val < w1 then x1 (ix2 p (⟨q.val, hq⟩ : Fin w1))
        else x2 (ix2 p (⟨q.val - w1, by have := q.isLt; omega⟩ : Fin w2)) := by
  split
  · rename_i hq
    exact concatenate_pair_apply_left (1 : Fin 2) x1 x2 h (ix2 p q) rfl (ix2 p (⟨q.val, hq⟩ : Fin w1))
      (fun b => match b with
        | ⟨0, _⟩ => rfl
        | ⟨1, _⟩ => rfl)
  · rename_i hq
    exact concatenate_pair_apply_right (1 : Fin 2) x1 x2 h (ix2 p q) rfl rfl
      (ix2 p (⟨q.val - w1, by have := q.isLt; omega⟩ : Fin w2))
      (fun b hb => match b, hb with
        | ⟨0, _⟩, _ => rfl
        | ⟨1, _⟩, hb => absurd rfl hb)
      (by show (q.val - w1) + w1 = q.val; omega)

end Cert.LibCat2
-- ==== Proof.Reference.lean ====
/-
  The scatter reference, read at a pixel.

  Per event the reference computes the same clamped row and column and the same weight bits as the kernel; it then
  scatter-adds the weights of channel 0 and of channel 1 into two zero vectors of length 480 * 640 at the flat index
  row * 640 + column, stacks the two, views the stack as 2 x 480 x 640 and adds the state image.  So at (pol, h, w) it
  is the state image plus (zero plus) the sum over all events of the weight where the flat index is h * 640 + w.
-/
import proofs.«153197_j39444979646671_1_alg».proof.Proof.RefRead
import proofs.«153197_j39444979646671_1_alg».proof.Proof.Spec
import proofs.«153197_j39444979646671_1_alg».proof.Proof.LibScatterRows
import proofs.«153197_j39444979646671_1_alg».proof.Proof.LibCat2
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx Cert.Hist

variable (x0 : Events)

/-! ## One event's fields -/

theorem x_at (e : Fin 16777216) : val_main_v1 (F := Ideal) x0 (ix1 e) = x0 (ix2 e (0 : Fin 4)) := by
  rw [val_main_v1_apply, val_main_v0_apply]
  refine congrArg x0 (funext fun a => Fin.ext ?_)
  match a with
  | ⟨0, _⟩ => exact Nat.div_one _
  | ⟨1, _⟩ => rfl

theorem y_at (e : Fin 16777216) : val_main_v4 (F := Ideal) x0 (ix1 e) = x0 (ix2 e (1 : Fin 4)) := by
  rw [val_main_v4_apply, val_main_v3_apply]
  refine congrArg x0 (funext fun a => Fin.ext ?_)
  match a with
  | ⟨0, _⟩ => exact Nat.div_one _
  | ⟨1, _⟩ => rfl

theorem p_at (e : Fin 16777216) : val_main_v7 (F := Ideal) x0 (ix1 e) = x0 (ix2 e (3 : Fin 4)) := by
  rw [val_main_v7_apply, val_main_v6_apply]
  refine congrArg x0 (funext fun a => Fin.ext ?_)
  match a with
  | ⟨0, _⟩ => exact Nat.div_one _
  | ⟨1, _⟩ => rfl

/-- The clamped column. -/
theorem col_ref (e : Fin 16777216) : val_main_v22 (F := Ideal) x0 (ix1 e) = colOf (x0 (ix2 e (0 : Fin 4))) := by
  simp only [val_main_v22_apply, val_main_call1_v4_apply, val_main_call1_v3_apply, val_main_c_7_apply, val_main_call1_v2_apply,
    val_main_call1_v1_apply, val_main_call1_v0_apply, val_main_c_6_apply, val_main_v2_apply, x_at]
  rfl

/-- The clamped row. -/
theorem row_ref (e : Fin 16777216) : val_main_v19 (F := Ideal) x0 (ix1 e) = rowOf (x0 (ix2 e (1 : Fin 4))) := by
  simp only [val_main_v19_apply, val_main_call0_v4_apply, val_main_call0_v3_apply, val_main_c_4_apply, val_main_call0_v2_apply,
    val_main_call0_v1_apply, val_main_call0_v0_apply, val_main_c_3_apply, val_main_v5_apply, y_at]
  rfl

/-- The on-sensor bit. -/
theorem sensor_ref (e : Fin 16777216) :
    val_main_v18 (F := Ideal) x0 (ix1 e) = onSensor (x0 (ix2 e (0 : Fin 4))) (x0 (ix2 e (1 : Fin 4))) := by
  simp only [val_main_v18_apply, val_main_v17_apply, val_main_v16_apply, val_main_c_2_apply, val_main_v15_apply, val_main_v14_apply,
    val_main_v13_apply, val_main_c_1_apply, val_main_v12_apply, val_main_v11_apply, val_main_v10_apply, val_main_c_0_apply,
    val_main_v9_apply, val_main_v8_apply, val_main_c_apply, val_main_v2_apply, val_main_v5_apply, x_at, y_at]
  rfl

/-- The flat row * 640 + column. -/
theorem flat_ref (e : Fin 16777216) :
    val_main_v23 (F := Ideal) x0 (ix1 e) = IntOp.addi (IntOp.muli (rowOf (x0 (ix2 e (1 : Fin 4)))) 640#32) (colOf (x0 (ix2 e (0 : Fin 4)))) := by
  simp only [val_main_v23_apply, val_main_v21_apply, val_main_v20_apply, val_main_c_5_apply, row_ref, col_ref]

/-- The scatter index of channel 0's scatter, -/
theorem index0_ref (e : Fin 16777216) :
    val_main_v38 (F := Ideal) x0 (ix2 e (0 : Fin 1)) = flatIdx (rowOf (x0 (ix2 e (1 : Fin 4)))) (colOf (x0 (ix2 e (0 : Fin 4)))) := by
  rw [val_main_v38_apply, show idx_main_v38 (ix2 e (0 : Fin 1)) = ix1 e from funext fun a => Fin.ext (by match a with | ⟨0, _⟩ => rfl)]
  simp only [val_main_v37_apply, val_main_v36_apply, val_main_v35_apply, val_main_c_11_apply, val_main_v34_apply, val_main_v33_apply,
    val_main_c_10_apply, flat_ref]
  rfl

/-- and of channel 1's: the same. -/
theorem index1_ref (e : Fin 16777216) :
    val_main_v46 (F := Ideal) x0 (ix2 e (0 : Fin 1)) = flatIdx (rowOf (x0 (ix2 e (1 : Fin 4)))) (colOf (x0 (ix2 e (0 : Fin 4)))) := by
  rw [val_main_v46_apply, show idx_main_v46 (ix2 e (0 : Fin 1)) = ix1 e from funext fun a => Fin.ext (by match a with | ⟨0, _⟩ => rfl)]
  simp only [val_main_v45_apply, val_main_v44_apply, val_main_v43_apply, val_main_c_14_apply, val_main_v42_apply, val_main_v41_apply,
    val_main_c_13_apply, flat_ref]
  rfl

/-- Channel 0's weight. -/
theorem weight0_ref (e : Fin 16777216) :
    val_main_v27 (F := Ideal) x0 (ix1 e)
      = bitR (weightBit 0 (x0 (ix2 e (0 : Fin 4))) (x0 (ix2 e (1 : Fin 4))) (x0 (ix2 e (3 : Fin 4)))) := by
  simp only [val_main_v27_apply, val_main_v26_apply, val_main_v25_apply, val_main_v24_apply, val_main_cst_apply, sensor_ref, p_at]
  rfl

/-- Channel 1's weight. -/
theorem weight1_ref (e : Fin 16777216) :
    val_main_v31 (F := Ideal) x0 (ix1 e)
      = bitR (weightBit 1 (x0 (ix2 e (0 : Fin 4))) (x0 (ix2 e (1 : Fin 4))) (x0 (ix2 e (3 : Fin 4)))) := by
  simp only [val_main_v31_apply, val_main_v30_apply, val_main_v29_apply, val_main_v28_apply, val_main_cst_8_apply, sensor_ref, p_at]
  rfl

/-! ## The two scatters -/

/-- The printed scatter record is the scalar-update row scatter. -/
theorem scatter_is_rows : scatter_S307200_S16777216x1_S16777216_n_0_0_1
    = Cert.Val.rowDims1 307200 16777216 scatter_S307200_S16777216x1_S16777216_n_0_0_1_wf := rfl

/-- Channel 0's scatter at flat pixel h * 640 + w: zero plus the events' scatter terms. -/
theorem scatter0_at (h : Fin 480) (w : Fin 640) (hn : h.val * 640 + w.val < 307200) :
    val_main_v39 (F := Ideal) x0 (ix1 (⟨h.val * 640 + w.val, hn⟩ : Fin 307200)) = 0 + count x0 0 h w := by
  unfold val_main_v39
  rw [scatter_is_rows, Cert.Val.scatterAdd_rows1_apply, val_main_v32_apply, val_main_cst_9_apply,
    show (FloatOps.ofBits .f32 0x00000000#32 : Ideal .f32) = (0 : EReal) from Ideal.ofBits_zero_f32]
  refine congrArg ((0 : EReal) + ·) ?_
  unfold Cert.Hist.count
  refine Finset.sum_congr rfl fun e _ => ?_
  rw [index0_ref, weight0_ref]
  rfl

/-- Channel 1's scatter likewise. -/
theorem scatter1_at (h : Fin 480) (w : Fin 640) (hn : h.val * 640 + w.val < 307200) :
    val_main_v47 (F := Ideal) x0 (ix1 (⟨h.val * 640 + w.val, hn⟩ : Fin 307200)) = 0 + count x0 1 h w := by
  unfold val_main_v47
  rw [scatter_is_rows, Cert.Val.scatterAdd_rows1_apply, val_main_v40_apply, val_main_cst_12_apply,
    show (FloatOps.ofBits .f32 0x00000000#32 : Ideal .f32) = (0 : EReal) from Ideal.ofBits_zero_f32]
  refine congrArg ((0 : EReal) + ·) ?_
  unfold Cert.Hist.count
  refine Finset.sum_congr rfl fun e _ => ?_
  rw [index1_ref, weight1_ref]
  rfl

/-! ## The result -/

/-- THE REFERENCE at (pol, h, w): the state image plus zero plus the count image. -/
theorem ref_at (x1 : S2x480x640.Idx → EReal) (pol : Fin 2) (h : Fin 480) (w : Fin 640) :
    val_main_v52 (F := Ideal) x0 x1 (ix3 pol h w) = x1 (ix3 pol h w) + (0 + count x0 pol h w) := by
  have hh := h.isLt
  have hw := w.isLt
  have hp := pol.isLt
  have hn : h.val * 640 + w.val < 307200 := by omega
  have hi : idx_main_v51 (ix3 pol h w) = ix2 pol (⟨h.val * 640 + w.val, hn⟩ : Fin 307200) := by
    funext a
    apply Fin.ext
    match a with
    | ⟨0, _⟩ => show ((pol.val * 480 + h.val) * 640 + w.val) / 307200 = pol.val; omega
    | ⟨1, _⟩ => show ((pol.val * 480 + h.val) * 640 + w.val) % 307200 = h.val * 640 + w.val; omega
  rw [val_main_v52_apply, val_main_v51_apply, hi]
  refine congrArg (x1 (ix3 pol h w) + ·) ?_
  unfold val_main_v50
  rw [Cert.LibCat2.rows_apply (n1 := 1) (n2 := 1) rfl]
  rcases channel_cases pol with rfl | rfl
  · rw [dif_pos (by decide), val_main_v48_apply,
      show idx_main_v48 (ix2 (⟨(0 : Fin 2).val, by decide⟩ : Fin 1) (⟨h.val * 640 + w.val, hn⟩ : Fin 307200))
        = ix1 (⟨h.val * 640 + w.val, hn⟩ : Fin 307200) from funext fun a => Fin.ext (by match a with | ⟨0, _⟩ => rfl)]
    exact scatter0_at x0 h w hn
  · rw [dif_neg (by decide), val_main_v49_apply,
      show idx_main_v49 (ix2 (⟨(1 : Fin 2).val - 1, by decide⟩ : Fin 1) (⟨h.val * 640 + w.val, hn⟩ : Fin 307200))
        = ix1 (⟨h.val * 640 + w.val, hn⟩ : Fin 307200) from funext fun a => Fin.ext (by match a with | ⟨0, _⟩ => rfl)]
    exact scatter1_at x0 h w hn

end Cert.ReferenceIdeal.RefValue

end
-- ==== Proof.RefRun.lean ====
/-
  The reference program's run: it terminates with its result buffer at the last stage's value of the arguments.

  The program is a straight line of 80 host operations, each writing a buffer of its own.  The first 77 end with the
  two scattered vectors viewed as 1 x 307200 rows; the last three join the rows, view the join as 2 x 480 x 640 and add
  the state image.  Running the first 77 and then the last three is running all 80.
-/
import proofs.«153197_j39444979646671_1_alg».proof.Proof.RefRead
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running a line of operations and then another is running their concatenation. -/
theorem after_append : ∀ (l1 l2 : List (HloOp τ sig (Elt F))) (V : Valuation τ sig (Elt F)),
    after (l1 ++ l2) V = after l2 (after l1 V)
  | [], _, _ => rfl
  | op :: l1, l2, V => after_append l1 l2 (op.result V)

/-- The first 77 operations: everything up to the two scattered vectors as rows. -/
abbrev opsA : List (HloOp τ sig (Elt F)) :=
  [ unary main_arg0 main_v0 ((extractStridedSlice S16777216x1 ![0, 0] · slices_S16777216x4_S16777216x1_0_0) : (⟨S16777216x4, .f32⟩ : BufTy).Contents (Elt F) → (⟨S16777216x1, .f32⟩ : BufTy).Contents (Elt F)),
    reshape main_v0 main_v1 rfl shapeCasts_S16777216x1_S16777216,
    unary main_v1 main_v2 (fptosi 32 : (⟨S16777216, .f32⟩ : BufTy).Contents (Elt F) → (⟨S16777216, .i32⟩ : BufTy).Contents (Elt F)),
    unary main_arg0 main_v3 ((extractStridedSlice S16777216x1 ![0, 1] · slices_S16777216x4_S16777216x1_0_1) : (⟨S16777216x4, .f32⟩ : BufTy).Contents (Elt F) → (⟨S16777216x1, .f32⟩ : BufTy).Contents (Elt F)),
    reshape main_v3 main_v4 rfl shapeCasts_S16777216x1_S16777216,
    unary main_v4 main_v5 (fptosi 32 : (⟨S16777216, .f32⟩ : BufTy).Contents (Elt F) → (⟨S16777216, .i32⟩ : BufTy).Contents (Elt F)),
    unary main_arg0 main_v6 ((extractStridedSlice S16777216x1 ![0, 3] · slices_S16777216x4_S16777216x1_0_3) : (⟨S16777216x4, .f32⟩ : BufTy).Contents (Elt F) → (⟨S16777216x1, .f32⟩ : BufTy).Contents (Elt F)),
    reshape main_v6 main_v7 rfl shapeCasts_S16777216x1_S16777216,
    nullary main_c (constantI S_ 32 0#32),
    unary main_c main_v8 (broadcastInDim S16777216 ![] bcast_S_S16777216 : (⟨S_, .i32⟩ : BufTy).Contents (Elt F) → (⟨S16777216, .i32⟩ : BufTy).Contents (Elt F)),
    binary main_v2 main_v8 main_v9 (cmpi .sge : (⟨S16777216, .i32⟩ : BufTy).Contents (Elt F) → (⟨S16777216, .i32⟩ : BufTy).Contents (Elt F) → (⟨S16777216, .i1⟩ : BufTy).Contents (Elt F)),
    nullary main_c_0 (constantI S_ 32 640#32),
    unary main_c_0 main_v10 (broadcastInDim S16777216 ![] bcast_S_S16777216 : (⟨S_, .i32⟩ : BufTy).Contents (Elt F) → (⟨S16777216, .i32⟩ : BufTy).Contents (Elt F)),
    binary main_v2 main_v10 main_v11 (cmpi .slt : (⟨S16777216, .i32⟩ : BufTy).Contents (Elt F) → (⟨S16777216, .i32⟩ : BufTy).Contents (Elt F) → (⟨S16777216, .i1⟩ : BufTy).Contents (Elt F)),
    binary main_v9 main_v11 main_v12 (andi : (⟨S16777216, .i1⟩ : BufTy).Contents (Elt F) → (⟨S16777216, .i1⟩ : BufTy).Contents (Elt F) → (⟨S16777216, .i1⟩ : BufTy).Contents (Elt F)),
    nullary main_c_1 (constantI S_ 32 0#32),
    unary main_c_1 main_v13 (broadcastInDim S16777216 ![] bcast_S_S16777216 : (⟨S_, .i32⟩ : BufTy).Contents (Elt F) → (⟨S16777216, .i32⟩ : BufTy).Contents (Elt F)),
    binary main_v5 main_v13 main_v14 (cmpi .sge : (⟨S16777216, .i32⟩ : BufTy).Contents (Elt F) → (⟨S16777216, .i32⟩ : BufTy).Contents (Elt F) → (⟨S16777216, .i1⟩ : BufTy).Contents (Elt F)),
    binary main_v12 main_v14 main_v15 (andi : (⟨S16777216, .i1⟩ : BufTy).Contents (Elt F) → (⟨S16777216, .i1⟩ : BufTy).Contents (Elt F) → (⟨S16777216, .i1⟩ : BufTy).Contents (Elt F)),
    nullary main_c_2 (constantI S_ 32 480#32),
    unary main_c_2 main_v16 (broadcastInDim S16777216 ![] bcast_S_S16777216 : (⟨S_, .i32⟩ : BufTy).Contents (Elt F) → (⟨S16777216, .i32⟩ : BufTy).Contents (Elt F)),
    binary main_v5 main_v16 main_v17 (cmpi .slt : (⟨S16777216, .i32⟩ : BufTy).Contents (Elt F) → (⟨S16777216, .i32⟩ : BufTy).Contents (Elt F) → (⟨S16777216, .i1⟩ : BufTy).Contents (Elt F)),
    binary main_v15 main_v17 main_v18 (andi : (⟨S16777216, .i1⟩ : BufTy).Contents (Elt F) → (⟨S16777216, .i1⟩ : BufTy).Contents (Elt F) → (⟨S16777216, .i1⟩ : BufTy).Contents (Elt F)),
    nullary main_c_3 (constantI S_ 32 0#32),
    nullary main_c_4 (constantI S_ 32 479#32),
    TRef.unary (TRef.of (T := ⟨S_, .i32⟩) main_c_3) (TRef.of (T := ⟨S_, .i32⟩) main_call0_v0) id,
    TRef.unary (TRef.of (T := ⟨S_, .i32⟩) main_call0_v0) (TRef.of (T := ⟨S16777216, .i32⟩) main_call0_v1) (broadcastInDim S16777216 ![] bcast_S_S16777216),
    TRef.binary (TRef.of (T := ⟨S16777216, .i32⟩) main_call0_v1) (TRef.of (T := ⟨S16777216, .i32⟩) main_v5) (TRef.of (T := ⟨S16777216, .i32⟩) main_call0_v2) maxsi,
    TRef.unary (TRef.of (T := ⟨S_, .i32⟩) main_c_4) (TRef.of (T := ⟨S_, .i32⟩) main_call0_v3) id,
    TRef.unary (TRef.of (T := ⟨S_, .i32⟩) main_call0_v3) (TRef.of (T := ⟨S16777216, .i32⟩) main_call0_v4) (broadcastInDim S16777216 ![] bcast_S_S16777216),
    TRef.binary (TRef.of (T := ⟨S16777216, .i32⟩) main_call0_v4) (TRef.of (T := ⟨S16777216, .i32⟩) main_call0_v2) (TRef.of (T := ⟨S16777216, .i32⟩) main_v19) minsi,
    nullary main_c_5 (constantI S_ 32 640#32),
    unary main_c_5 main_v20 (broadcastInDim S16777216 ![] bcast_S_S16777216 : (⟨S_, .i32⟩ : BufTy).Contents (Elt F) → (⟨S16777216, .i32⟩ : BufTy).Contents (Elt F)),
    binary main_v19 main_v20 main_v21 (muli : (⟨S16777216, .i32⟩ : BufTy).Contents (Elt F) → (⟨S16777216, .i32⟩ : BufTy).Contents (Elt F) → (⟨S16777216, .i32⟩ : BufTy).Contents (Elt F)),
    nullary main_c_6 (constantI S_ 32 0#32),
    nullary main_c_7 (constantI S_ 32 639#32),
    TRef.unary (TRef.of (T := ⟨S_, .i32⟩) main_c_6) (TRef.of (T := ⟨S_, .i32⟩) main_call1_v0) id,
    TRef.unary (TRef.of (T := ⟨S_, .i32⟩) main_call1_v0) (TRef.of (T := ⟨S16777216, .i32⟩) main_call1_v1) (broadcastInDim S16777216 ![] bcast_S_S16777216),
    TRef.binary (TRef.of (T := ⟨S16777216, .i32⟩) main_call1_v1) (TRef.of (T := ⟨S16777216, .i32⟩) main_v2) (TRef.of (T := ⟨S16777216, .i32⟩) main_call1_v2) maxsi,
    TRef.unary (TRef.of (T := ⟨S_, .i32⟩) main_c_7) (TRef.of (T := ⟨S_, .i32⟩) main_call1_v3) id,
    TRef.unary (TRef.of (T := ⟨S_, .i32⟩) main_call1_v3) (TRef.of (T := ⟨S16777216, .i32⟩) main_call1_v4) (broadcastInDim S16777216 ![] bcast_S_S16777216),
    TRef.binary (TRef.of (T := ⟨S16777216, .i32⟩) main_call1_v4) (TRef.of (T := ⟨S16777216, .i32⟩) main_call1_v2) (TRef.of (T := ⟨S16777216, .i32⟩) main_v22) minsi,
    binary main_v21 main_v22 main_v23 (addi : (⟨S16777216, .i32⟩ : BufTy).Contents (Elt F) → (⟨S16777216, .i32⟩ : BufTy).Contents (Elt F) → (⟨S16777216, .i32⟩ : BufTy).Contents (Elt F)),
    nullary main_cst (constant S_ .f32 0x00000000#32),
    unary main_cst main_v24 (broadcastInDim S16777216 ![] bcast_S_S16777216 : (⟨S_, .f32⟩ : BufTy).Contents (Elt F) → (⟨S16777216, .f32⟩ : BufTy).Contents (Elt F)),
    binary main_v7 main_v24 main_v25 (cmpf .ogt : (⟨S16777216, .f32⟩ : BufTy).Contents (Elt F) → (⟨S16777216, .f32⟩ : BufTy).Contents (Elt F) → (⟨S16777216, .i1⟩ : BufTy).Contents (Elt F)),
    binary main_v18 main_v25 main_v26 (andi : (⟨S16777216, .i1⟩ : BufTy).Contents (Elt F) → (⟨S16777216, .i1⟩ : BufTy).Contents (Elt F) → (⟨S16777216, .i1⟩ : BufTy).Contents (Elt F)),
    unary main_v26 main_v27 (uitofp .f32 : (⟨S16777216, .i1⟩ : BufTy).Contents (Elt F) → (⟨S16777216, .f32⟩ : BufTy).Contents (Elt F)),
    nullary main_cst_8 (constant S_ .f32 0x00000000#32),
    unary main_cst_8 main_v28 (broadcastInDim S16777216 ![] bcast_S_S16777216 : (⟨S_, .f32⟩ : BufTy).Contents (Elt F) → (⟨S16777216, .f32⟩ : BufTy).Contents (Elt F)),
    binary main_v7 main_v28 main_v29 (cmpf .ole : (⟨S16777216, .f32⟩ : BufTy).Contents (Elt F) → (⟨S16777216, .f32⟩ : BufTy).Contents (Elt F) → (⟨S16777216, .i1⟩ : BufTy).Contents (Elt F)),
    binary main_v18 main_v29 main_v30 (andi : (⟨S16777216, .i1⟩ : BufTy).Contents (Elt F) → (⟨S16777216, .i1⟩ : BufTy).Contents (Elt F) → (⟨S16777216, .i1⟩ : BufTy).Contents (Elt F)),
    unary main_v30 main_v31 (uitofp .f32 : (⟨S16777216, .i1⟩ : BufTy).Contents (Elt F) → (⟨S16777216, .f32⟩ : BufTy).Contents (Elt F)),
    nullary main_cst_9 (constant S_ .f32 0x00000000#32),
    unary main_cst_9 main_v32 (broadcastInDim S307200 ![] bcast_S_S307200 : (⟨S_, .f32⟩ : BufTy).Contents (Elt F) → (⟨S307200, .f32⟩ : BufTy).Contents (Elt F)),
    nullary main_c_10 (constantI S_ 32 0#32),
    unary main_c_10 main_v33 (broadcastInDim S16777216 ![] bcast_S_S16777216 : (⟨S_, .i32⟩ : BufTy).Contents (Elt F) → (⟨S16777216, .i32⟩ : BufTy).Contents (Elt F)),
    binary main_v23 main_v33 main_v34 (cmpi .slt : (⟨S16777216, .i32⟩ : BufTy).Contents (Elt F) → (⟨S16777216, .i32⟩ : BufTy).Contents (Elt F) → (⟨S16777216, .i1⟩ : BufTy).Contents (Elt F)),
    nullary main_c_11 (constantI S_ 32 307200#32),
    unary main_c_11 main_v35 (broadcastInDim S16777216 ![] bcast_S_S16777216 : (⟨S_, .i32⟩ : BufTy).Contents (Elt F) → (⟨S16777216, .i32⟩ : BufTy).Contents (Elt F)),
    binary main_v23 main_v35 main_v36 (addi : (⟨S16777216, .i32⟩ : BufTy).Contents (Elt F) → (⟨S16777216, .i32⟩ : BufTy).Contents (Elt F) → (⟨S16777216, .i32⟩ : BufTy).Contents (Elt F)),
    ternary main_v34 main_v36 main_v23 main_v37 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v37 main_v38 (broadcastInDim S16777216x1 ![0] bcast_S16777216_S16777216x1_0 : (⟨S16777216, .i32⟩ : BufTy).Contents (Elt F) → (⟨S16777216x1, .i32⟩ : BufTy).Contents (Elt F)),
    ternary main_v32 main_v38 main_v27 main_v39 ((fun x i u => Host.scatterAdd scatter_S307200_S16777216x1_S16777216_n_0_0_1 x i u) : (⟨S307200, .f32⟩ : BufTy).Contents (Elt F) → (⟨S16777216x1, .i32⟩ : BufTy).Contents (Elt F) → (⟨S16777216, .f32⟩ : BufTy).Contents (Elt F) → (⟨S307200, .f32⟩ : BufTy).Contents (Elt F)),
    nullary main_cst_12 (constant S_ .f32 0x00000000#32),
    unary main_cst_12 main_v40 (broadcastInDim S307200 ![] bcast_S_S307200 : (⟨S_, .f32⟩ : BufTy).Contents (Elt F) → (⟨S307200, .f32⟩ : BufTy).Contents (Elt F)),
    nullary main_c_13 (constantI S_ 32 0#32),
    unary main_c_13 main_v41 (broadcastInDim S16777216 ![] bcast_S_S16777216 : (⟨S_, .i32⟩ : BufTy).Contents (Elt F) → (⟨S16777216, .i32⟩ : BufTy).Contents (Elt F)),
    binary main_v23 main_v41 main_v42 (cmpi .slt : (⟨S16777216, .i32⟩ : BufTy).Contents (Elt F) → (⟨S16777216, .i32⟩ : BufTy).Contents (Elt F) → (⟨S16777216, .i1⟩ : BufTy).Contents (Elt F)),
    nullary main_c_14 (constantI S_ 32 307200#32),
    unary main_c_14 main_v43 (broadcastInDim S16777216 ![] bcast_S_S16777216 : (⟨S_, .i32⟩ : BufTy).Contents (Elt F) → (⟨S16777216, .i32⟩ : BufTy).Contents (Elt F)),
    binary main_v23 main_v43 main_v44 (addi : (⟨S16777216, .i32⟩ : BufTy).Contents (Elt F) → (⟨S16777216, .i32⟩ : BufTy).Contents (Elt F) → (⟨S16777216, .i32⟩ : BufTy).Contents (Elt F)),
    ternary main_v42 main_v44 main_v23 main_v45 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v45 main_v46 (broadcastInDim S16777216x1 ![0] bcast_S16777216_S16777216x1_0 : (⟨S16777216, .i32⟩ : BufTy).Contents (Elt F) → (⟨S16777216x1, .i32⟩ : BufTy).Contents (Elt F)),
    ternary main_v40 main_v46 main_v31 main_v47 ((fun x i u => Host.scatterAdd scatter_S307200_S16777216x1_S16777216_n_0_0_1 x i u) : (⟨S307200, .f32⟩ : BufTy).Contents (Elt F) → (⟨S16777216x1, .i32⟩ : BufTy).Contents (Elt F) → (⟨S16777216, .f32⟩ : BufTy).Contents (Elt F) → (⟨S307200, .f32⟩ : BufTy).Contents (Elt F)),
    unary main_v39 main_v48 (broadcastInDim S1x307200 ![1] bcast_S307200_S1x307200_1 : (⟨S307200, .f32⟩ : BufTy).Contents (Elt F) → (⟨S1x307200, .f32⟩ : BufTy).Contents (Elt F)),
    unary main_v47 main_v49 (broadcastInDim S1x307200 ![1] bcast_S307200_S1x307200_1 : (⟨S307200, .f32⟩ : BufTy).Contents (Elt F) → (⟨S1x307200, .f32⟩ : BufTy).Contents (Elt F)) ]

/-- The last three: join the rows, view as 2 x 480 x 640, add the state image. -/
abbrev opsB : List (HloOp τ sig (Elt F)) :=
  [ binary main_v48 main_v49 main_v50 ((fun a b => concatenate S2x307200 0 [⟨S1x307200, a⟩, ⟨S1x307200, b⟩] concatenates_S1x307200_S1x307200_S2x307200_d0) : (⟨S1x307200, .f32⟩ : BufTy).Contents (Elt F) → (⟨S1x307200, .f32⟩ : BufTy).Contents (Elt F) → (⟨S2x307200, .f32⟩ : BufTy).Contents (Elt F)),
    reshape main_v50 main_v51 rfl shapeCasts_S2x307200_S2x480x640,
    binary main_arg1 main_v51 main_v52 (addf : (⟨S2x480x640, .f32⟩ : BufTy).Contents (Elt F) → (⟨S2x480x640, .f32⟩ : BufTy).Contents (Elt F) → (⟨S2x480x640, .f32⟩ : BufTy).Contents (Elt F)) ]

theorem ops_split : (ops : List (HloOp τ sig (Elt F))) = opsA ++ opsB := rfl

/-- The last three operations as one function of the state image and the two rows. -/
def joinAdd (a : (⟨S2x480x640, .f32⟩ : BufTy).Contents (Elt F)) (p q : (⟨S1x307200, .f32⟩ : BufTy).Contents (Elt F)) :
    (⟨S2x480x640, .f32⟩ : BufTy).Contents (Elt F) :=
  addf a (shapeCast _ (concatenate S2x307200 0 [⟨S1x307200, p⟩, ⟨S1x307200, q⟩] concatenates_S1x307200_S1x307200_S2x307200_d0)
    shapeCasts_S2x307200_S2x480x640)

theorem val_is_joinAdd (x0 : (⟨S16777216x4, .f32⟩ : BufTy).Contents (Elt F)) (x1 : (⟨S2x480x640, .f32⟩ : BufTy).Contents (Elt F)) :
    val_main_v52 (F := F) x0 x1 = joinAdd x1 (val_main_v48 (F := F) x0) (val_main_v49 (F := F) x0) := rfl

/-- The last three operations compute it from whatever the buffers hold before them. -/
theorem tail_value (W : Valuation τ sig (Elt F)) :
    after opsB W (Proc.devRef .tc main_v52)
      = joinAdd (W (Proc.devRef .tc main_arg1)) (W (Proc.devRef .tc main_v48)) (W (Proc.devRef .tc main_v49)) := by
  after_results_simp <;> rfl

set_option maxRecDepth 8192 in
/-- The first 77 operations leave the first row at its stage's value, -/
theorem row0_value (V : Valuation τ sig (Elt F)) :
    after opsA V (Proc.devRef .tc main_v48) = val_main_v48 (F := F) (V (Proc.devRef .tc main_arg0)) := by
  after_results_simp <;> rfl

set_option maxRecDepth 8192 in
/-- the second row at its stage's value, -/
theorem row1_value (V : Valuation τ sig (Elt F)) :
    after opsA V (Proc.devRef .tc main_v49) = val_main_v49 (F := F) (V (Proc.devRef .tc main_arg0)) := by
  after_results_simp <;> rfl

set_option maxRecDepth 8192 in
/-- and the state image as it was. -/
theorem arg1_kept (V : Valuation τ sig (Elt F)) :
    after opsA V (Proc.devRef .tc main_arg1) = V (Proc.devRef .tc main_arg1) := by
  after_results_simp <;> rfl

/-- So the result buffer ends at the last stage's value of the arguments. -/
theorem result_value (V : Valuation τ sig (Elt F)) :
    after ops V (Proc.devRef .tc main_v52)
      = val_main_v52 (F := F) (V (Proc.devRef .tc main_arg0)) (V (Proc.devRef .tc main_arg1)) := by
  rw [ops_split, after_append, tail_value, row0_value, row1_value, arg1_kept, val_is_joinAdd]

set_option maxRecDepth 8192 in
/-- No operation writes an argument. -/
theorem arg0_after (V : Valuation τ sig (Elt F)) : after ops V (Proc.devRef .tc main_arg0) = V (Proc.devRef .tc main_arg0) := by
  after_results_simp <;> rfl
set_option maxRecDepth 8192 in
theorem arg1_after (V : Valuation τ sig (Elt F)) : after ops V (Proc.devRef .tc main_arg1) = V (Proc.devRef .tc main_arg1) := by
  after_results_simp <;> rfl

/-- THE REFERENCE'S RUN: every weakly fair execution terminates with the result buffer at the last stage's value of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = val_main_v52 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v52).trans (result_value _), (h c main_arg0).trans (arg0_after _),
      (h c main_arg1).trans (arg1_after _)⟩)
    (run_seq scopedRefs_eq scopedSems_eq defs main (fun _ => ops) main_eq (fun _ => ops_sub) m ρ)

end Cert.ReferenceIdeal.RefRun

end
-- ==== Proof.lean ====
/-
  An event-count image computed two ways, equal over the extended reals.

  Input: 16777216 events (x, y, t, p) and a 2 x 480 x 640 state image.  Each event whose truncated (x, y) lies on the
  640 x 480 sensor adds 1 to pixel (y, x) of channel 0 when p > 0 and of channel 1 when p ≤ 0; the result is the state
  image plus these counts.

  The kernel never indexes by an event's coordinates.  A grid point takes 2048 events, forms the 0/1 matrix
  "event k is in row h" (scaled by the channel's 0/1 weight) and the 0/1 matrix "event k is in column w", and multiplies
  them with the event axis contracted: entry (h, w) is the number of the block's weighted events at that pixel.  Each of
  two cores accumulates 4096 such products into its own partial image; the host adds the two partial images and the
  state image.  The reference scatter-adds every event's weight at the flat index row * 640 + column.

  The two agree term by term.  For one event and one pixel, (row test) * weight * (column test) is the weight where
  the flat index is h * 640 + w and zero elsewhere, because the clamped coordinates keep the flat index from wrapping
  (Proof/Cell.lean).  The kernel's grouping of the events — blocks, the running accumulator, two cores — is a
  regrouping of one finite sum in a commutative monoid (Proof/Sums.lean, Proof/Spec.lean); every term is 0 or 1, and
  no law used needs the inputs to be finite.  Proof/KernelPoint.lean reads one grid point's stores at a pixel,
  Proof/KernelCases.lean what a run of the body leaves in the accumulator block, Proof/KernelAcc.lean the accumulator
  after each point (by induction) and the written-back partial images, Proof/KernelRun.lean the host's final sum,
  Proof/RefRun.lean the reference's run, Proof/Reference.lean the scatter reference at a pixel.  The ideal pass rewrote nothing, so the kernel's
  idealization is its own text read at the extended reals.
-/
import proofs.«153197_j39444979646671_1_alg».proof.Defs
import proofs.«153197_j39444979646671_1_alg».proof.Proof.Gen.Kernel
import proofs.«153197_j39444979646671_1_alg».proof.Proof.Gen.Kernel.Skeleton
import proofs.«153197_j39444979646671_1_alg».proof.Proof.Gen.Kernel.Launch
import proofs.«153197_j39444979646671_1_alg».proof.Proof.Gen.Kernel.Points
import proofs.«153197_j39444979646671_1_alg».proof.Proof.Gen.Kernel.Frame
import proofs.«153197_j39444979646671_1_alg».proof.Proof.Gen.KernelIdeal
import proofs.«153197_j39444979646671_1_alg».proof.Proof.Gen.KernelIdeal.Skeleton
import proofs.«153197_j39444979646671_1_alg».proof.Proof.Gen.KernelIdeal.Launch
import proofs.«153197_j39444979646671_1_alg».proof.Proof.Gen.KernelIdeal.Points
import proofs.«153197_j39444979646671_1_alg».proof.Proof.Gen.KernelIdeal.Frame
import proofs.«153197_j39444979646671_1_alg».proof.Proof.Gen.ReferenceIdeal
import proofs.«153197_j39444979646671_1_alg».proof.Proof.Gen.Pre_finite_inputs
import proofs.«153197_j39444979646671_1_alg».proof.Proof.KernelRun
import proofs.«153197_j39444979646671_1_alg».proof.Proof.Reference
import proofs.«153197_j39444979646671_1_alg».proof.Proof.RefRun
import Idealize.ShloMosaic.Adequacy
import Idealize.ShloMosaic.Init

noncomputable section

namespace Cert.Proof

open Idealize.ShloMosaic Idealize.ShloMosaic.ValueIdx Idealize.SL.Sem Cert.Hist

/-- The kernel as printed runs and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both programs end with the state image plus the count image: the kernel as the sum of its two cores' partial
    images, the reference as zero plus one sum over all events. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  funext i
  obtain ⟨pol, h, w, rfl⟩ : ∃ (pol : Fin 2) (h : Fin 480) (w : Fin 640), i = ix3 pol h w := ⟨i 0, i 1, i 2, eq_ix3 i⟩
  rw [Cert.ReferenceIdeal.RefValue.ref_at, zero_add]
  unfold Cert.KernelIdeal.Acc.result
  exact congrArg (Cert.KernelIdeal.Acc.img m c (ix3 pol h w) + ·) (partials_eq_count _ pol h w).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
